-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v11_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v11_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v42) = v0 c
          ∧ r.2.mem ((c.tc : Thread Cert.ReferenceIdeal.nD Cert.ReferenceIdeal.τ).loc Cert.ReferenceIdeal.main_v40) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part5 {F : FTy → Type} [FloatOps F] (main_arg18 : FVec F S1024 .f32) (main_v83 : IVec S_ 1) (main_v84 : FVec F S1024x1024 .f32) (main_cst_32 : FVec F S_ .f32) : IVec S_ 1 :=
  let main_v85 : FVec F S1024x1024 .f32 := broadcastInDim S1024x1024 ![] bcast_S_S1024x1024 main_cst_32
  let main_v86 : IVec S1024x1024 1 := cmpf .olt main_v84 main_v85
  let main_c_33 : IVec S_ 1 := constantI S_ 1 1#1
  let main_v87 : IVec S_ 1 := (fun x v => Host.reduce IntOp.andi x v reducesTo_S1024x1024_S_d0_1 h_S_) main_v86 main_c_33
  let main_v88 : IVec S_ 1 := andi main_v83 main_v87
  let main_v89 : FVec F S1024 .f32 := Host.absf main_arg18
  let main_cst_34 : FVec F S_ .f32 := constant S_ .f32 0x7F800000#32
  let main_v90 : FVec F S1024 .f32 := broadcastInDim S1024 ![] bcast_S_S1024 main_cst_34
  let main_v91 : IVec S1024 1 := cmpf .olt main_v89 main_v90
  let main_c_35 : IVec S_ 1 := constantI S_ 1 1#1
  let main_v92 : IVec S_ 1 := (fun x v => Host.reduce IntOp.andi x v reducesTo_S1024_S_d0 h_S_) main_v91 main_c_35
  let main_v93 : IVec S_ 1 := andi main_v88 main_v92
  main_v93

def fn_part4 {F : FTy → Type} [FloatOps F] (main_arg14 : FVec F S1024 .f32) (main_arg15 : FVec F S1024x1024 .f32) (main_arg16 : FVec F S1024 .f32) (main_arg17 : FVec F S1024x1024 .f32) (main_arg18 : FVec F S1024 .f32) (main_v63 : IVec S_ 1) (main_v67 : IVec S_ 1) : IVec S_ 1 :=
  let main_v68 : IVec S_ 1 := andi main_v63 main_v67
  let main_v69 : FVec F S1024 .f32 := Host.absf main_arg14
  let main_cst_26 : FVec F S_ .f32 := constant S_ .f32 0x7F800000#32
  let main_v70 : FVec F S1024 .f32 := broadcastInDim S1024 ![] bcast_S_S1024 main_cst_26
  let main_v71 : IVec S1024 1 := cmpf .olt main_v69 main_v70
  let main_c_27 : IVec S_ 1 := constantI S_ 1 1#1
  let main_v72 : IVec S_ 1 := (fun x v => Host.reduce IntOp.andi x v reducesTo_S1024_S_d0 h_S_) main_v71 main_c_27
  let main_v73 : IVec S_ 1 := andi main_v68 main_v72
  let main_v74 : FVec F S1024x1024 .f32 := Host.absf main_arg15
  let main_cst_28 : FVec F S_ .f32 := constant S_ .f32 0x7F800000#32
  let main_v75 : FVec F S1024x1024 .f32 := broadcastInDim S1024x1024 ![] bcast_S_S1024x1024 main_cst_28
  let main_v76 : IVec S1024x1024 1 := cmpf .olt main_v74 main_v75
  let main_c_29 : IVec S_ 1 := constantI S_ 1 1#1
  let main_v77 : IVec S_ 1 := (fun x v => Host.reduce IntOp.andi x v reducesTo_S1024x1024_S_d0_1 h_S_) main_v76 main_c_29
  let main_v78 : IVec S_ 1 := andi main_v73 main_v77
  let main_v79 : FVec F S1024 .f32 := Host.absf main_arg16
  let main_cst_30 : FVec F S_ .f32 := constant S_ .f32 0x7F800000#32
  let main_v80 : FVec F S1024 .f32 := broadcastInDim S1024 ![] bcast_S_S1024 main_cst_30
  let main_v81 : IVec S1024 1 := cmpf .olt main_v79 main_v80
  let main_c_31 : IVec S_ 1 := constantI S_ 1 1#1
  let main_v82 : IVec S_ 1 := (fun x v => Host.reduce IntOp.andi x v reducesTo_S1024_S_d0 h_S_) main_v81 main_c_31
  let main_v83 : IVec S_ 1 := andi main_v78 main_v82
  let main_v84 : FVec F S1024x1024 .f32 := Host.absf main_arg17
  let main_cst_32 : FVec F S_ .f32 := constant S_ .f32 0x7F800000#32
  fn_part5 (F := F) main_arg18 main_v83 main_v84 main_cst_32

def fn_part3 {F : FTy → Type} [FloatOps F] (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  let main_v54 : FVec F S1024x1024 .f32 := Host.absf main_arg11
  let main_cst_20 : FVec F S_ .f32 := constant S_ .f32 0x7F800000#32
  let main_v55 : FVec F S1024x1024 .f32 := broadcastInDim S1024x1024 ![] bcast_S_S1024x1024 main_cst_20
  let main_v56 : IVec S1024x1024 1 := cmpf .olt main_v54 main_v55
  let main_c_21 : IVec S_ 1 := constantI S_ 1 1#1
  let main_v57 : IVec S_ 1 := (fun x v => Host.reduce IntOp.andi x v reducesTo_S1024x1024_S_d0_1 h_S_) main_v56 main_c_21
  let main_v58 : IVec S_ 1 := andi main_v53 main_v57
  let main_v59 : FVec F S1024 .f32 := Host.absf main_arg12
  let main_cst_22 : FVec F S_ .f32 := constant S_ .f32 0x7F800000#32
  let main_v60 : FVec F S1024 .f32 := broadcastInDim S1024 ![] bcast_S_S1024 main_cst_22
  let main_v61 : IVec S1024 1 := cmpf .olt main_v59 main_v60
  let main_c_23 : IVec S_ 1 := constantI S_ 1 1#1
  let main_v62 : IVec S_ 1 := (fun x v => Host.reduce IntOp.andi x v reducesTo_S1024_S_d0 h_S_) main_v61 main_c_23
  let main_v63 : IVec S_ 1 := andi main_v58 main_v62
  let main_v64 : FVec F S1024x1024 .f32 := Host.absf main_arg13
  let main_cst_24 : FVec F S_ .f32 := constant S_ .f32 0x7F800000#32
  let main_v65 : FVec F S1024x1024 .f32 := broadcastInDim S1024x1024 ![] bcast_S_S1024x1024 main_cst_24
  let main_v66 : IVec S1024x1024 1 := cmpf .olt main_v64 main_v65
  let main_c_25 : IVec S_ 1 := constantI S_ 1 1#1
  let main_v67 : IVec S_ 1 := (fun x v => Host.reduce IntOp.andi x v reducesTo_S1024x1024_S_d0_1 h_S_) main_v66 main_c_25
  fn_part4 (F := F) main_arg14 main_arg15 main_arg16 main_arg17 main_arg18 main_v63 main_v67

def fn_part2 {F : FTy → Type} [FloatOps F] (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x1024 .f32 := Host.absf main_arg9
  let main_cst_16 : FVec F S_ .f32 := constant S_ .f32 0x7F800000#32
  let main_v45 : FVec F S1024x1024 .f32 := broadcastInDim S1024x1024 ![] bcast_S_S1024x1024 main_cst_16
  let main_v46 : IVec S1024x1024 1 := cmpf .olt main_v44 main_v45
  let main_c_17 : IVec S_ 1 := constantI S_ 1 1#1
  let main_v47 : IVec S_ 1 := (fun x v => Host.reduce IntOp.andi x v reducesTo_S1024x1024_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_arg11 main_arg12 main_arg13 main_arg14 main_arg15 main_arg16 main_arg17 main_arg18 main_v48 main_v49 main_v50

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_v33

def fn {F : FTy → Type} [FloatOps F] (main_arg0 : FVec F S4096x1024 .f32) (main_arg1 : FVec F S4096x1024 .f32) (main_arg2 : FVec F S4096x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) (main_arg9 : FVec F S1024x1024 .f32) (main_arg10 : FVec F S1024 .f32) (main_arg11 : FVec F S1024x1024 .f32) (main_arg12 : FVec F S1024 .f32) (main_arg13 : FVec F S1024x1024 .f32) (main_arg14 : FVec F S1024 .f32) (main_arg15 : FVec F S1024x1024 .f32) (main_arg16 : FVec F S1024 .f32) (main_arg17 : FVec F S1024x1024 .f32) (main_arg18 : FVec F S1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S4096x1024 .f32 := Host.absf main_arg1
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_c_1 : IVec S_ 1 := constantI S_ 1 1#1
  let main_v7 : IVec S_ 1 := (fun x v => Host.reduce IntOp.andi x v reducesTo_S4096x1024_S_d0_1 h_S_) main_v6 main_c_1
  let main_v8 : IVec S_ 1 := andi main_v3 main_v7
  let main_v9 : FVec F S4096x1024 .f32 := Host.absf main_arg2
  let main_cst_2 : FVec F S_ .f32 := constant S_ .f32 0x7F800000#32
  let main_v10 : FVec F S4096x1024 .f32 := broadcastInDim S4096x1024 ![] bcast_S_S4096x1024 main_cst_2
  let main_v11 : IVec S4096x1024 1 := cmpf .olt main_v9 main_v10
  let main_c_3 : IVec S_ 1 := constantI S_ 1 1#1
  let main_v12 : IVec S_ 1 := (fun x v => Host.reduce IntOp.andi x v reducesTo_S4096x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_v13 main_v16
-- ==== Kernel.lean ====
abbrev S4096x1024 : Shape := ⟨2, ![4096, 1024]⟩
abbrev S1024x1024 : Shape := ⟨2, ![1024, 1024]⟩
abbrev S1024 : Shape := ⟨1, ![1024]⟩
abbrev S4096 : Shape := ⟨1, ![4096]⟩
abbrev S1x4096 : Shape := ⟨2, ![1, 4096]⟩
abbrev S1024x4096 : Shape := ⟨2, ![1024, 4096]⟩
abbrev S2048x4096 : Shape := ⟨2, ![2048, 4096]⟩
abbrev S256x1024 : Shape := ⟨2, ![256, 1024]⟩
abbrev S256x2048 : Shape := ⟨2, ![256, 2048]⟩
abbrev S256x4096 : Shape := ⟨2, ![256, 4096]⟩

abbrev nBuf : Space → Nat
  | .hbm => 32
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S1024x1024, .f32⟩
  | .hbm, ⟨18, _⟩ => ⟨S1024, .f32⟩
  | .hbm, ⟨19, _⟩ => ⟨S4096x1024, .f32⟩
  | .hbm, ⟨20, _⟩ => ⟨S4096x1024, .f32⟩
  | .hbm, ⟨21, _⟩ => ⟨S4096, .f32⟩
  | .hbm, ⟨22, _⟩ => ⟨S4096, .f32⟩
  | .hbm, ⟨23, _⟩ => ⟨S4096, .f32⟩
  | .hbm, ⟨24, _⟩ => ⟨S1x4096, .f32⟩
  | .hbm, ⟨25, _⟩ => ⟨S1024x4096, .f32⟩
  | .hbm, ⟨26, _⟩ => ⟨S1024x4096, .bf16⟩
  | .hbm, ⟨27, _⟩ => ⟨S1024x4096, .f32⟩
  | .hbm, ⟨28, _⟩ => ⟨S1024x4096, .bf16⟩
  | .hbm, ⟨29, _⟩ => ⟨S2048x4096, .bf16⟩
  | .hbm, ⟨30, _⟩ => ⟨S4096x1024, .f32⟩
  | .hbm, ⟨31, _⟩ => ⟨S4096x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S2048x4096, .bf16⟩
  | .local _ .vmem, ⟨7, _⟩ => ⟨S1x4096, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11_0 : Ref sig .tc := ⟨.hbm, 30, rfl⟩
abbrev main_v11_1 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  concatenates_S1024x1024_S1024x1024_S1024x1024_S1024x1024_S4096x1024_d0 : Shape.Concatenates [S1024x1024, S1024x1024, S1024x1024, S1024x1024] S4096x1024 0
  concatenates_S1024_S1024_S1024_S1024_S4096_d0 : Shape.Concatenates [S1024, S1024, S1024, S1024] S4096 0
  shapeCasts_S4096_S1x4096 : S4096.ShapeCasts S1x4096
  transposes_S4096x1024_S1024x4096_1_0 : S4096x1024.Transposes [1, 0] S1024x4096
  bitsLt_bf16_f32 : FTy.bits .bf16 < FTy.bits .f32
  concatenates_S1024x4096_S1024x4096_S2048x4096_d0 : Shape.Concatenates [S1024x4096, S1024x4096] S2048x4096 0
  inb_S256x1024_S256x1024_0_0 : ∀ a, (![0, 0] : Fin 2 → Nat) a + S256x1024.size a ≤ S256x1024.size a
  h_S256x1024 : 0 < S256x1024.numel
  concatenates_S256x1024_S256x1024_S256x2048_d1 : Shape.Concatenates [S256x1024, S256x1024] S256x2048 1
  inb_S2048x4096_S2048x4096_0_0 : ∀ a, (![0, 0] : Fin 2 → Nat) a + S2048x4096.size a ≤ S2048x4096.size a
  h_S2048x4096 : 0 < S2048x4096.numel
  shapeCasts_S2048x4096_S2048x4096 : S2048x4096.ShapeCasts S2048x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x2048_S2048x4096_S256x4096_1_0_0_1_n_n_wf : DotDims.WF S256x2048 S2048x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S4096x1024.size a
  hwx0_0 : ∀ i : grid0.Coords, EltTy.bits .f32 = 32 ∨ (Rect.block (s := S4096x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S4096x1024.size a
  hwx0_1 : ∀ i : grid0.Coords, EltTy.bits .f32 = 32 ∨ (Rect.block (s := S4096x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S4096x1024.size a
  hwx0_2 : ∀ i : grid0.Coords, EltTy.bits .f32 = 32 ∨ (Rect.block (s := S4096x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x4096.size a ≤ S2048x4096.size a
  hwx0_3 : ∀ i : grid0.Coords, EltTy.bits .bf16 = 32 ∨ (Rect.block (s := S2048x4096) S2048x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S4096x1024.size a
  hwx0_5 : ∀ i : grid0.Coords, EltTy.bits .f32 = 32 ∨ (Rect.block (s := S4096x1024) S256x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S4096x1024.size a
  hwx0_6 : ∀ i : grid0.Coords, EltTy.bits .f32 = 32 ∨ (Rect.block (s := S4096x1024) S256x1024.size (cc0_transform_6 i) (hinb0_6 i)).WholeWords (EltTy.packing .f32)

variable [Facts₀]

def dot_S256x2048_S2048x4096_S256x4096_1_0_0_1_n_n : DotDims S256x2048 S2048x4096 S256x4096 where
  lhsContracting := [1]
  rhsContracting := [0]
  lhsNonContracting := [0]
  rhsNonContracting := [1]
  lhsBatch := []
  rhsBatch := []
  wf := dot_S256x2048_S2048x4096_S256x4096_1_0_0_1_n_n_wf

abbrev win0_0 : Pipeline.Window sig grid0 :=
  Pipeline.Window.ofSpec (Memref.whole main_arg0) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v10) S2048x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v11_0) S256x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v11_1) S256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S4096x1024 : Shape := ⟨2, ![4096, 1024]⟩
abbrev S1024x1024 : Shape := ⟨2, ![1024, 1024]⟩
abbrev S1024 : Shape := ⟨1, ![1024]⟩
abbrev S4096 : Shape := ⟨1, ![4096]⟩
abbrev S1024x4096 : Shape := ⟨2, ![1024, 4096]⟩
abbrev S4096x4096 : Shape := ⟨2, ![4096, 4096]⟩
abbrev S1x4096 : Shape := ⟨2, ![1, 4096]⟩
abbrev S_ : Shape := ⟨0, ![]⟩

abbrev nBuf : Space → Nat
  | .hbm => 68
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S4096x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1024x1024, .f32⟩
  | .hbm, ⟨10, _⟩ => ⟨S1024, .f32⟩
  | .hbm, ⟨11, _⟩ => ⟨S1024x1024, .f32⟩
  | .hbm, ⟨12, _⟩ => ⟨S1024, .f32⟩
  | .hbm, ⟨13, _⟩ => ⟨S1024x1024, .f32⟩
  | .hbm, ⟨14, _⟩ => ⟨S1024, .f32⟩
  | .hbm, ⟨15, _⟩ => ⟨S1024x1024, .f32⟩
  | .hbm, ⟨16, _⟩ => ⟨S1024, .f32⟩
  | .hbm, ⟨17, _⟩ => ⟨S1024x1024, .f32⟩
  | .hbm, ⟨18, _⟩ => ⟨S1024, .f32⟩
  | .hbm, ⟨19, _⟩ => ⟨S4096x1024, .f32⟩
  | .hbm, ⟨20, _⟩ => ⟨S4096x1024, .f32⟩
  | .hbm, ⟨21, _⟩ => ⟨S4096, .f32⟩
  | .hbm, ⟨22, _⟩ => ⟨S4096, .f32⟩
  | .hbm, ⟨23, _⟩ => ⟨S1024x4096, .f32⟩
  | .hbm, ⟨24, _⟩ => ⟨S4096x4096, .f32⟩
  | .hbm, ⟨25, _⟩ => ⟨S1024x4096, .f32⟩
  | .hbm, ⟨26, _⟩ => ⟨S4096x4096, .f32⟩
  | .hbm, ⟨27, _⟩ => ⟨S4096x4096, .f32⟩
  | .hbm, ⟨28, _⟩ => ⟨S1x4096, .f32⟩
  | .hbm, ⟨29, _⟩ => ⟨S4096x4096, .f32⟩
  | .hbm, ⟨30, _⟩ => ⟨S4096x4096, .f32⟩
  | .hbm, ⟨31, _⟩ => ⟨S1x4096, .f32⟩
  | .hbm, ⟨32, _⟩ => ⟨S4096x4096, .f32⟩
  | .hbm, ⟨33, _⟩ => ⟨S4096x4096, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S_, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S4096x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S4096x1024, .f32⟩
  | .hbm, ⟨59, _⟩ => ⟨S4096x1024, .f32⟩
  | .hbm, ⟨60, _⟩ => ⟨S_, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S4096x1024, .f32⟩
  | .hbm, ⟨66, _⟩ => ⟨S4096x1024, .f32⟩
  | .hbm, ⟨67, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst : Ref sig .tc := ⟨.hbm, 40, rfl⟩
abbrev main_v21 : Ref sig .tc := ⟨.hbm, 41, rfl⟩
abbrev main_v22 : Ref sig .tc := ⟨.hbm, 42, rfl⟩
abbrev main_cst_0 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_cst_1 : Ref sig .tc := ⟨.hbm, 48, rfl⟩
abbrev main_v27 : Ref sig .tc := ⟨.hbm, 49, rfl⟩
abbrev main_v28 : Ref sig .tc := ⟨.hbm, 50, rfl⟩
abbrev main_cst_2 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_3 : Ref sig .tc := ⟨.hbm, 57, rfl⟩
abbrev main_v34 : Ref sig .tc := ⟨.hbm, 58, rfl⟩
abbrev main_v35 : Ref sig .tc := ⟨.hbm, 59, rfl⟩
abbrev main_cst_4 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩

abbrev nD : Nat := 1
abbrev τ : Topo := Topo.v7x

variable {F : FTy → Type} [FloatOps F]

class Facts₀ : Prop where
  concatenates_S1024x1024_S1024x1024_S1024x1024_S1024x1024_S4096x1024_d0 : Shape.Concatenates [S1024x1024, S1024x1024, S1024x1024, S1024x1024] S4096x1024 0
  concatenates_S1024_S1024_S1024_S1024_S4096_d0 : Shape.Concatenates [S1024, S1024, S1024, S1024] S4096 0
  transposes_S4096x1024_S1024x4096_1_0 : S4096x1024.Transposes [1, 0] S1024x4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  slices_S4096x4096_S4096x1024_0_0 : S4096x4096.Slices ![0, 0] S4096x1024
  slices_S4096x4096_S4096x1024_0_1024 : S4096x4096.Slices ![0, 1024] S4096x1024
  slices_S4096x4096_S4096x1024_0_2048 : S4096x4096.Slices ![0, 2048] S4096x1024
  slices_S4096x4096_S4096x1024_0_3072 : S4096x4096.Slices ![0, 3072] S4096x1024
  bcast_S_S4096x1024 : S_.BroadcastsInDim S4096x1024 (![] : Fin 0 → Fin S4096x1024.rank)
  dot_S4096x1024_S1024x4096_S4096x4096_1_0_0_1_n_n_wf : DotDims.WF S4096x1024 S1024x4096 S4096x4096 [1] [0] [0] [1] [] []

variable [Facts₀]

def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf

class Facts : Prop extends Facts₀ where

variable [Facts]
-- ==== Proof.KernelFrame.lean ====
/-
  The frame of the LSTM-cell program: it runs to the end without a fault and leaves its nineteen argument arrays as
  it found them.

  The program is eleven host operations (the four gate weight matrices of each kind stacked, transposed and joined
  into one [2048, 4096] matrix; the two stacked bias vectors added and reshaped to a row), then one pallas_call over
  sixteen blocks of 256 batch rows. At a grid point the body reads its blocks of x, h and c, the whole weight matrix
  and the bias row, and overwrites its blocks of the two results; it keeps nothing between points. So what a result's
  staging buffer holds after the body is one function of the five input blocks (`hiddenBlock`, `cellBlock`), every
  input buffer holds its block at every point, and the library's frame run applies.
-/
import proofs.«100657_j35725537968252_2_alg».proof.Proof.Gen.Kernel.Launch
import proofs.«100657_j35725537968252_2_alg».proof.Proof.Gen.Kernel.Skeleton
import proofs.«100657_j35725537968252_2_alg».proof.Proof.Gen.Kernel.Points
import Idealize.ShloMosaic.Lib.Pipeline.FrameBody
import Idealize.ShloMosaic.Lib.Ring
import Idealize.ShloMosaic.Lib.Tactic

set_option synthInstance.maxSize 4096
set_option maxRecDepth 16384

noncomputable section

namespace Cert.Kernel.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its region -/

/-- What core `c`'s buffers hold when the region is entered: the launch contents after the eleven host operations. -/
abbrev atEntry (c : Dev nD) (b : Ref sig .tc) : Buf (Elt F) ((c : Thread nD τ).loc b) :=
  StableHlo.after (List.flatten [hostOps0]) (fun b => m (c, b)) b

/-- No host operation allocates. -/
theorem hostOps0_fresh : (hostOps0 : List (HloOp τ sig (Elt F))).Forall fun op => op.fresh = ∅ := by
  simp only [List.Forall]; repeat' constructor

/-- The program is its host operations followed by the region. -/
theorem main_upto (𝒱₀ : Variants) : Pipeline.HMain (Ix := Unit) (Name := ℕ) (U := UR sig nD τ) (Lvl := ℕ) cfgs 0 defs₀ 𝒱₀ m (main (F := F)) (atEntry m) :=
  Pipeline.hmain_prefixes cfgs 0 defs₀ 𝒱₀ m main [hostOps0] (by simp only [List.Forall]; exact hostOps0_sub)
    (by simp only [List.Forall]; exact hostOps0_fresh) main_chain

/-! The host operations write the eleven intermediate arrays only: each argument array is found as launched. -/
theorem entry_arg0 (c : Dev nD) : atEntry m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem entry_arg1 (c : Dev nD) : atEntry m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem entry_arg2 (c : Dev nD) : atEntry m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem entry_arg3 (c : Dev nD) : atEntry m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem entry_arg4 (c : Dev nD) : atEntry m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem entry_arg5 (c : Dev nD) : atEntry m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem entry_arg6 (c : Dev nD) : atEntry m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem entry_arg7 (c : Dev nD) : atEntry m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem entry_arg8 (c : Dev nD) : atEntry m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem entry_arg9 (c : Dev nD) : atEntry m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem entry_arg10 (c : Dev nD) : atEntry m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem entry_arg11 (c : Dev nD) : atEntry m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem entry_arg12 (c : Dev nD) : atEntry m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem entry_arg13 (c : Dev nD) : atEntry m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem entry_arg14 (c : Dev nD) : atEntry m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem entry_arg15 (c : Dev nD) : atEntry m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem entry_arg16 (c : Dev nD) : atEntry m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem entry_arg17 (c : Dev nD) : atEntry m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem entry_arg18 (c : Dev nD) : atEntry m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-! ## The windows' blocks -/

/-- Window `w`'s block at grid point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-! An input window's current staging buffer holds its block at every point, whether the point fetched it or not
    (the weight matrix and the bias row are fetched once: their block index never moves). -/
theorem staged0_of {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem staged1_of {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem staged2_of {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem staged3_of {c : Dev nD} (dat : Dat τ (Elt F) Unit ℕ (UR sig nD τ) ℕ cfg0 c) (hA : dat.A 3 = atEntry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem staged4_of {c : Dev nD} (dat : Dat τ (Elt F) Unit ℕ (UR sig nD τ) ℕ cfg0 c) (hA : dat.A 4 = atEntry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-! ## From the frame run's post to the frame claim's -/

/-- A run ending with every array of the pipeline at what the proof data computes and every other buffer as at the
    region's entry leaves the argument arrays as launched: x, h and c are input windows (their arrays are never
    written back), the sixteen weight and bias arrays are no window's. -/
theorem kept_of_post (dats : (p : Fin 1) → (c : Dev nD) → Dat τ (Elt F) Unit ℕ (UR sig nD τ) ℕ (cfgs p) c)
    (hA : ∀ c w, (dats 0 c).A w = atEntry m c (Pipeline.arrRef spec0 w))
    (r : PUnit × MemSt nD τ sig (Elt F)) (h : Pipeline.FramePost cfgs dats 0 (atEntry m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  ⟨((h c).1 0).trans (((dats 0 c).arrAt_in 0 rfl _).trans ((hA c 0).trans (entry_arg0 m c))),
    ((h c).1 1).trans (((dats 0 c).arrAt_in 1 rfl _).trans ((hA c 1).trans (entry_arg1 m c))),
    ((h c).1 2).trans (((dats 0 c).arrAt_in 2 rfl _).trans ((hA c 2).trans (entry_arg2 m c))),
    ((h c).2 main_arg3 (Pipeline.mem_restRefs_of main_arg3 (by decide) (by decide))).trans (entry_arg3 m c),
    ((h c).2 main_arg4 (Pipeline.mem_restRefs_of main_arg4 (by decide) (by decide))).trans (entry_arg4 m c),
    ((h c).2 main_arg5 (Pipeline.mem_restRefs_of main_arg5 (by decide) (by decide))).trans (entry_arg5 m c),
    ((h c).2 main_arg6 (Pipeline.mem_restRefs_of main_arg6 (by decide) (by decide))).trans (entry_arg6 m c),
    ((h c).2 main_arg7 (Pipeline.mem_restRefs_of main_arg7 (by decide) (by decide))).trans (entry_arg7 m c),
    ((h c).2 main_arg8 (Pipeline.mem_restRefs_of main_arg8 (by decide) (by decide))).trans (entry_arg8 m c),
    ((h c).2 main_arg9 (Pipeline.mem_restRefs_of main_arg9 (by decide) (by decide))).trans (entry_arg9 m c),
    ((h c).2 main_arg10 (Pipeline.mem_restRefs_of main_arg10 (by decide) (by decide))).trans (entry_arg10 m c),
    ((h c).2 main_arg11 (Pipeline.mem_restRefs_of main_arg11 (by decide) (by decide))).trans (entry_arg11 m c),
    ((h c).2 main_arg12 (Pipeline.mem_restRefs_of main_arg12 (by decide) (by decide))).trans (entry_arg12 m c),
    ((h c).2 main_arg13 (Pipeline.mem_restRefs_of main_arg13 (by decide) (by decide))).trans (entry_arg13 m c),
    ((h c).2 main_arg14 (Pipeline.mem_restRefs_of main_arg14 (by decide) (by decide))).trans (entry_arg14 m c),
    ((h c).2 main_arg15 (Pipeline.mem_restRefs_of main_arg15 (by decide) (by decide))).trans (entry_arg15 m c),
    ((h c).2 main_arg16 (Pipeline.mem_restRefs_of main_arg16 (by decide) (by decide))).trans (entry_arg16 m c),
    ((h c).2 main_arg17 (Pipeline.mem_restRefs_of main_arg17 (by decide) (by decide))).trans (entry_arg17 m c),
    ((h c).2 main_arg18 (Pipeline.mem_restRefs_of main_arg18 (by decide) (by decide))).trans (entry_arg18 m c)⟩

/-- So a run to that post is the frame claim's run. -/
theorem frame_of (dats : (p : Fin 1) → (c : Dev nD) → Dat τ (Elt F) Unit ℕ (UR sig nD τ) ℕ (cfgs p) c)
    (hA : ∀ c w, (dats 0 c).A w = atEntry m c (Pipeline.arrRef spec0 w))
    (h : θ_run defs (onTc (τ := τ) (main (F := F))) (s₀ m ρ) (Pipeline.FramePost cfgs dats 0 (atEntry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => kept_of_post m dats hA r h c) h

/-! ## What the body leaves in the two result buffers -/

abbrev rAct : Rect S256x1024 := Rect.unit (s := S256x1024) ![0, 0] S256x1024.size inb_S256x1024_S256x1024_0_0
abbrev rWeights : Rect S2048x4096 := Rect.unit (s := S2048x4096) ![0, 0] S2048x4096.size inb_S2048x4096_S2048x4096_0_0
abbrev rBias : Rect S1x4096 := Rect.unit (s := S1x4096) ![0, 0] S1x4096.size inb_S1x4096_S1x4096_0_0

/-- The new hidden state's block, from the blocks of x, h, c, the weights and the bias: the body's one store into it. -/
def hiddenBlock (x h cPrev : Vec F S256x1024 .f32) (wts : Vec F S2048x4096 .bf16) (bias : Vec F S1x4096 .f32) : Vec F S256x1024 .f32 :=
  View.canon [⟨rAct, k0_pay3 (View.ld x rAct) (View.ld h rAct) (View.ld wts rWeights) (View.ld bias rBias) (View.ld cPrev rAct)⟩]

/-- The new cell state's block, likewise. -/
def cellBlock (x h cPrev : Vec F S256x1024 .f32) (wts : Vec F S2048x4096 .bf16) (bias : Vec F S1x4096 .f32) : Vec F S256x1024 .f32 :=
  View.canon [⟨rAct, k0_pay2 (View.ld x rAct) (View.ld h rAct) (View.ld wts rWeights) (View.ld bias rBias) (View.ld cPrev rAct)⟩]

/-- One store of the whole rectangle covers the buffer. -/
theorem cover_act (p0 : Vec F S256x1024 .f32) (y : S256x1024.Idx) :
    ∃ pc ∈ ([⟨rAct, p0⟩] : List (View.Piece (Elt F) S256x1024 .f32)), y ∈ pc.1.set :=
  View.cover_of_tiled [⟨rAct, p0⟩] S256x1024.size (by rfl) y

/-! ## The body's triple -/

set_option maxHeartbeats 1000000 in
/-- The body on whole staging buffers — the five inputs' at read contents, the two results' at anything — runs to the
    continuation with the inputs' as they were and the results' at `hiddenBlock` and `cellBlock` of the inputs'. (It
    loads each result buffer before storing into it and uses neither value.) -/
theorem sound_kernel (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S2048x4096 .bf16) (harg4 : arg4.IsWhole)
    (arg5 : Memref sig .tc .vmem S1x4096 .f32) (harg5 : arg5.IsWhole) (arg6 : Memref sig .tc .vmem S256x1024 .f32) (harg6 : arg6.IsWhole)
    (arg7 : Memref sig .tc .vmem S256x1024 .f32) (harg7 : arg7.IsWhole)
    (x h cPrev : Vec F S256x1024 .f32) (wts : Vec F S2048x4096 .bf16) (bias : Vec F S1x4096 .f32) (K : PUnit → sProp 𝕄) :
    iprop(owns (c : Thread nD τ) arg1 fullShare x ∗ owns (c : Thread nD τ) arg2 fullShare h ∗ owns (c : Thread nD τ) arg3 fullShare cPrev
        ∗ owns (c : Thread nD τ) arg4 fullShare wts ∗ owns (c : Thread nD τ) arg5 fullShare bias
        ∗ (∃ d, owns (c : Thread nD τ) arg6 fullShare d) ∗ (∃ d, owns (c : Thread nD τ) arg7 fullShare d)
        ∗ (iprop(owns (c : Thread nD τ) arg1 fullShare x ∗ owns (c : Thread nD τ) arg2 fullShare h ∗ owns (c : Thread nD τ) arg3 fullShare cPrev
            ∗ owns (c : Thread nD τ) arg4 fullShare wts ∗ owns (c : Thread nD τ) arg5 fullShare bias
            ∗ owns (c : Thread nD τ) arg6 fullShare (hiddenBlock x h cPrev wts bias)
            ∗ owns (c : Thread nD τ) arg7 fullShare (cellBlock x h cPrev wts bias)) -∗ K ⟨⟩))
      ⊢ wp frame (wpE (defs₀ (F := F)) Variants.none c none) E (cc0__lstm_kernel i arg1 harg1 arg2 harg2 arg3 harg3 arg4 harg4 arg5 harg5 arg6 harg6 arg7 harg7) K := by
  simp only [cc0__lstm_kernel_eq_skeleton]; unfold cc0__lstm_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_act _)
  iexists _; isplitr
  swap; · iexact H7
  ipureintro
  exact View.read_writes_eq_canon _ _ _ (cover_act _)

/-! ## The pipeline's proof data -/

/-- On core `c`: the arrays as the region finds them; after the body at point `t` each input buffer at its block and
    the two result buffers at `hiddenBlock` and `cellBlock` of the five input blocks; the invariant is the untouched
    rest; nothing owed; full shares. -/
def dats (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => hiddenBlock (blockAt m c 0 t) (blockAt m c 1 t) (blockAt m c 2 t) (blockAt m c 3 t) (blockAt m c 4 t)
    | ⟨6, _⟩ => cellBlock (blockAt m c 0 t) (blockAt m c 1 t) (blockAt m c 2 t) (blockAt m c 3 t) (blockAt m c 4 t)
  Φ _ := Pipeline.ΦA spec0 c
  q _ := fullShare
  owed _ := 0

theorem A_eq (c : Dev nD) (w : Fin cfg0.W) : (dats m 0 c).A w = atEntry m c (Pipeline.arrRef spec0 w) := by
  dsimp only [dats]

theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) : (dats m 0 c).after 2 t = blockAt m c 2 t := by dsimp only [dats]
theorem after_3 (c : Dev nD) (t : Fin cfg0.N) : (dats m 0 c).after 3 t = blockAt m c 3 t := by dsimp only [dats]
theorem after_4 (c : Dev nD) (t : Fin cfg0.N) : (dats m 0 c).after 4 t = blockAt m c 4 t := by dsimp only [dats]
theorem after_5 (c : Dev nD) (t : Fin cfg0.N) : (dats m 0 c).after 5 t
    = hiddenBlock (blockAt m c 0 t) (blockAt m c 1 t) (blockAt m c 2 t) (blockAt m c 3 t) (blockAt m c 4 t) := by dsimp only [dats]
theorem after_6 (c : Dev nD) (t : Fin cfg0.N) : (dats m 0 c).after 6 t
    = cellBlock (blockAt m c 0 t) (blockAt m c 1 t) (blockAt m c 2 t) (blockAt m c 3 t) (blockAt m c 4 t) := by dsimp only [dats]

theorem staged0 (c : Dev nD) (t : Fin cfg0.N) (d) : (dats m 0 c).before 0 t d = blockAt m c 0 t :=
  staged0_of m (dats m 0 c) (A_eq m c 0) (after_0 m c) t d
theorem staged1 (c : Dev nD) (t : Fin cfg0.N) (d) : (dats m 0 c).before 1 t d = blockAt m c 1 t :=
  staged1_of m (dats m 0 c) (A_eq m c 1) (after_1 m c) t d
theorem staged2 (c : Dev nD) (t : Fin cfg0.N) (d) : (dats m 0 c).before 2 t d = blockAt m c 2 t :=
  staged2_of m (dats m 0 c) (A_eq m c 2) (after_2 m c) t d
theorem staged3 (c : Dev nD) (t : Fin cfg0.N) (d) : (dats m 0 c).before 3 t d = blockAt m c 3 t :=
  staged3_of m (dats m 0 c) (A_eq m c 3) (after_3 m c) t d
theorem staged4 (c : Dev nD) (t : Fin cfg0.N) (d) : (dats m 0 c).before 4 t d = blockAt m c 4 t :=
  staged4_of m (dats m 0 c) (A_eq m c 4) (after_4 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the input buffers hold their blocks, so the body's triple applies; the invariant and what
    the core owes pass through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [staged0, staged1, staged2, staged3, staged4]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (blockAt m c 0 t) (blockAt m c 1 t) (blockAt m c 2 t) (blockAt m c 3 t) (blockAt m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and in every final state
    each array of the pipeline is what the proof data computes and every other unscoped buffer is as the region found it. -/
theorem run_main : θ_run defs (onTc (τ := τ) (main (F := F))) (s₀ m ρ) (Pipeline.FramePost cfgs (dats m) 0 (atEntry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := atEntry m) (hmain := main_upto m Variants.none) (hA := A_eq m) (hΦ := fun _ _ => rfl)

/-- The frame, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.Kernel.Frm

end
-- ==== Proof.KernelIdealFrame.lean ====
/-
  The frame of the LSTM-cell program: it runs to the end without a fault and leaves its nineteen argument arrays as
  it found them.

  The program is eleven host operations (the four gate weight matrices of each kind stacked, transposed and joined
  into one [2048, 4096] matrix; the two stacked bias vectors added and reshaped to a row), then one pallas_call over
  sixteen blocks of 256 batch rows. At a grid point the body reads its blocks of x, h and c, the whole weight matrix
  and the bias row, and overwrites its blocks of the two results; it keeps nothing between points. So what a result's
  staging buffer holds after the body is one function of the five input blocks (`hiddenBlock`, `cellBlock`), every
  input buffer holds its block at every point, and the library's frame run applies.
-/
import proofs.«100657_j35725537968252_2_alg».proof.Proof.Gen.KernelIdeal.Launch
import proofs.«100657_j35725537968252_2_alg».proof.Proof.Gen.KernelIdeal.Skeleton
import proofs.«100657_j35725537968252_2_alg».proof.Proof.Gen.KernelIdeal.Points
import Idealize.ShloMosaic.Lib.Pipeline.FrameBody
import Idealize.ShloMosaic.Lib.Ring
import Idealize.ShloMosaic.Lib.Tactic

set_option synthInstance.maxSize 4096
set_option maxRecDepth 16384

noncomputable section

namespace Cert.KernelIdeal.Frm

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to its region -/

/-- What core `c`'s buffers hold when the region is entered: the launch contents after the eleven host operations. -/
abbrev atEntry (c : Dev nD) (b : Ref sig .tc) : Buf (Elt F) ((c : Thread nD τ).loc b) :=
  StableHlo.after (List.flatten [hostOps0]) (fun b => m (c, b)) b

/-- No host operation allocates. -/
theorem hostOps0_fresh : (hostOps0 : List (HloOp τ sig (Elt F))).Forall fun op => op.fresh = ∅ := by
  simp only [List.Forall]; repeat' constructor

/-- The program is its host operations followed by the region. -/
theorem main_upto (𝒱₀ : Variants) : Pipeline.HMain (Ix := Unit) (Name := ℕ) (U := UR sig nD τ) (Lvl := ℕ) cfgs 0 defs₀ 𝒱₀ m (main (F := F)) (atEntry m) :=
  Pipeline.hmain_prefixes cfgs 0 defs₀ 𝒱₀ m main [hostOps0] (by simp only [List.Forall]; exact hostOps0_sub)
    (by simp only [List.Forall]; exact hostOps0_fresh) main_chain

/-! The host operations write the eleven intermediate arrays only: each argument array is found as launched. -/
theorem entry_arg0 (c : Dev nD) : atEntry m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem entry_arg1 (c : Dev nD) : atEntry m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem entry_arg2 (c : Dev nD) : atEntry m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem entry_arg3 (c : Dev nD) : atEntry m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem entry_arg4 (c : Dev nD) : atEntry m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem entry_arg5 (c : Dev nD) : atEntry m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem entry_arg6 (c : Dev nD) : atEntry m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem entry_arg7 (c : Dev nD) : atEntry m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem entry_arg8 (c : Dev nD) : atEntry m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem entry_arg9 (c : Dev nD) : atEntry m c main_arg9 = m ((c : Thread nD τ).loc main_arg9) :=
  StableHlo.after_of_forall_not_mem (b := Proc.devRef .tc main_arg9) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem entry_arg10 (c : Dev nD) : atEntry m c main_arg10 = m ((c : Thread nD τ).loc main_arg10) :=
  StableHlo.after_of_forall_not_mem (b := Proc.devRef .tc main_arg10) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem entry_arg11 (c : Dev nD) : atEntry m c main_arg11 = m ((c : Thread nD τ).loc main_arg11) :=
  StableHlo.after_of_forall_not_mem (b := Proc.devRef .tc main_arg11) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem entry_arg12 (c : Dev nD) : atEntry m c main_arg12 = m ((c : Thread nD τ).loc main_arg12) :=
  StableHlo.after_of_forall_not_mem (b := Proc.devRef .tc main_arg12) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem entry_arg13 (c : Dev nD) : atEntry m c main_arg13 = m ((c : Thread nD τ).loc main_arg13) :=
  StableHlo.after_of_forall_not_mem (b := Proc.devRef .tc main_arg13) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem entry_arg14 (c : Dev nD) : atEntry m c main_arg14 = m ((c : Thread nD τ).loc main_arg14) :=
  StableHlo.after_of_forall_not_mem (b := Proc.devRef .tc main_arg14) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem entry_arg15 (c : Dev nD) : atEntry m c main_arg15 = m ((c : Thread nD τ).loc main_arg15) :=
  StableHlo.after_of_forall_not_mem (b := Proc.devRef .tc main_arg15) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem entry_arg16 (c : Dev nD) : atEntry m c main_arg16 = m ((c : Thread nD τ).loc main_arg16) :=
  StableHlo.after_of_forall_not_mem (b := Proc.devRef .tc main_arg16) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem entry_arg17 (c : Dev nD) : atEntry m c main_arg17 = m ((c : Thread nD τ).loc main_arg17) :=
  StableHlo.after_of_forall_not_mem (b := Proc.devRef .tc main_arg17) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))
theorem entry_arg18 (c : Dev nD) : atEntry m c main_arg18 = m ((c : Thread nD τ).loc main_arg18) :=
  StableHlo.after_of_forall_not_mem (b := Proc.devRef .tc main_arg18) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.nary_writes, StableHlo.reshape_writes, Finset.mem_singleton]
    repeat' apply And.intro
    all_goals exact StableHlo.devRef_ne_of_ne (by decide)))

/-! ## The windows' blocks -/

/-- Window `w`'s block at grid point `t`, read off its array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-! An input window's current staging buffer holds its block at every point, whether the point fetched it or not
    (the weight matrix and the bias row are fetched once: their block index never moves). -/
theorem staged0_of {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem staged1_of {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem staged2_of {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem staged3_of {c : Dev nD} (dat : Dat τ (Elt F) Unit ℕ (UR sig nD τ) ℕ cfg0 c) (hA : dat.A 3 = atEntry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem staged4_of {c : Dev nD} (dat : Dat τ (Elt F) Unit ℕ (UR sig nD τ) ℕ cfg0 c) (hA : dat.A 4 = atEntry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-! ## From the frame run's post to the frame claim's -/

/-- A run ending with every array of the pipeline at what the proof data computes and every other buffer as at the
    region's entry leaves the argument arrays as launched: x, h and c are input windows (their arrays are never
    written back), the sixteen weight and bias arrays are no window's. -/
theorem kept_of_post (dats : (p : Fin 1) → (c : Dev nD) → Dat τ (Elt F) Unit ℕ (UR sig nD τ) ℕ (cfgs p) c)
    (hA : ∀ c w, (dats 0 c).A w = atEntry m c (Pipeline.arrRef spec0 w))
    (r : PUnit × MemSt nD τ sig (Elt F)) (h : Pipeline.FramePost cfgs dats 0 (atEntry m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  ⟨((h c).1 0).trans (((dats 0 c).arrAt_in 0 rfl _).trans ((hA c 0).trans (entry_arg0 m c))),
    ((h c).1 1).trans (((dats 0 c).arrAt_in 1 rfl _).trans ((hA c 1).trans (entry_arg1 m c))),
    ((h c).1 2).trans (((dats 0 c).arrAt_in 2 rfl _).trans ((hA c 2).trans (entry_arg2 m c))),
    ((h c).2 main_arg3 (Pipeline.mem_restRefs_of main_arg3 (by decide) (by decide))).trans (entry_arg3 m c),
    ((h c).2 main_arg4 (Pipeline.mem_restRefs_of main_arg4 (by decide) (by decide))).trans (entry_arg4 m c),
    ((h c).2 main_arg5 (Pipeline.mem_restRefs_of main_arg5 (by decide) (by decide))).trans (entry_arg5 m c),
    ((h c).2 main_arg6 (Pipeline.mem_restRefs_of main_arg6 (by decide) (by decide))).trans (entry_arg6 m c),
    ((h c).2 main_arg7 (Pipeline.mem_restRefs_of main_arg7 (by decide) (by decide))).trans (entry_arg7 m c),
    ((h c).2 main_arg8 (Pipeline.mem_restRefs_of main_arg8 (by decide) (by decide))).trans (entry_arg8 m c),
    ((h c).2 main_arg9 (Pipeline.mem_restRefs_of main_arg9 (by decide) (by decide))).trans (entry_arg9 m c),
    ((h c).2 main_arg10 (Pipeline.mem_restRefs_of main_arg10 (by decide) (by decide))).trans (entry_arg10 m c),
    ((h c).2 main_arg11 (Pipeline.mem_restRefs_of main_arg11 (by decide) (by decide))).trans (entry_arg11 m c),
    ((h c).2 main_arg12 (Pipeline.mem_restRefs_of main_arg12 (by decide) (by decide))).trans (entry_arg12 m c),
    ((h c).2 main_arg13 (Pipeline.mem_restRefs_of main_arg13 (by decide) (by decide))).trans (entry_arg13 m c),
    ((h c).2 main_arg14 (Pipeline.mem_restRefs_of main_arg14 (by decide) (by decide))).trans (entry_arg14 m c),
    ((h c).2 main_arg15 (Pipeline.mem_restRefs_of main_arg15 (by decide) (by decide))).trans (entry_arg15 m c),
    ((h c).2 main_arg16 (Pipeline.mem_restRefs_of main_arg16 (by decide) (by decide))).trans (entry_arg16 m c),
    ((h c).2 main_arg17 (Pipeline.mem_restRefs_of main_arg17 (by decide) (by decide))).trans (entry_arg17 m c),
    ((h c).2 main_arg18 (Pipeline.mem_restRefs_of main_arg18 (by decide) (by decide))).trans (entry_arg18 m c)⟩

/-- So a run to that post is the frame claim's run. -/
theorem frame_of (dats : (p : Fin 1) → (c : Dev nD) → Dat τ (Elt F) Unit ℕ (UR sig nD τ) ℕ (cfgs p) c)
    (hA : ∀ c w, (dats 0 c).A w = atEntry m c (Pipeline.arrRef spec0 w))
    (h : θ_run defs (onTc (τ := τ) (main (F := F))) (s₀ m ρ) (Pipeline.FramePost cfgs dats 0 (atEntry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  (θ_run defs _ _).mono (fun r h c => kept_of_post m dats hA r h c) h

/-! ## What the body leaves in the two result buffers -/

abbrev rAct : Rect S256x1024 := Rect.unit (s := S256x1024) ![0, 0] S256x1024.size inb_S256x1024_S256x1024_0_0
abbrev rWeights : Rect S2048x4096 := Rect.unit (s := S2048x4096) ![0, 0] S2048x4096.size inb_S2048x4096_S2048x4096_0_0
abbrev rBias : Rect S1x4096 := Rect.unit (s := S1x4096) ![0, 0] S1x4096.size inb_S1x4096_S1x4096_0_0

/-- The new hidden state's block, from the blocks of x, h, c, the weights and the bias: the body's one store into it. -/
def hiddenBlock (x h cPrev : Vec F S256x1024 .f32) (wts : Vec F S2048x4096 .bf16) (bias : Vec F S1x4096 .f32) : Vec F S256x1024 .f32 :=
  View.canon [⟨rAct, k0_pay3 (View.ld x rAct) (View.ld h rAct) (View.ld wts rWeights) (View.ld bias rBias) (View.ld cPrev rAct)⟩]

/-- The new cell state's block, likewise. -/
def cellBlock (x h cPrev : Vec F S256x1024 .f32) (wts : Vec F S2048x4096 .bf16) (bias : Vec F S1x4096 .f32) : Vec F S256x1024 .f32 :=
  View.canon [⟨rAct, k0_pay2 (View.ld x rAct) (View.ld h rAct) (View.ld wts rWeights) (View.ld bias rBias) (View.ld cPrev rAct)⟩]

/-- One store of the whole rectangle covers the buffer. -/
theorem cover_act (p0 : Vec F S256x1024 .f32) (y : S256x1024.Idx) :
    ∃ pc ∈ ([⟨rAct, p0⟩] : List (View.Piece (Elt F) S256x1024 .f32)), y ∈ pc.1.set :=
  View.cover_of_tiled [⟨rAct, p0⟩] S256x1024.size (by rfl) y

/-! ## The body's triple -/

set_option maxHeartbeats 1000000 in
/-- The body on whole staging buffers — the five inputs' at read contents, the two results' at anything — runs to the
    continuation with the inputs' as they were and the results' at `hiddenBlock` and `cellBlock` of the inputs'. (It
    loads each result buffer before storing into it and uses neither value.) -/
theorem sound_kernel (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S2048x4096 .bf16) (harg4 : arg4.IsWhole)
    (arg5 : Memref sig .tc .vmem S1x4096 .f32) (harg5 : arg5.IsWhole) (arg6 : Memref sig .tc .vmem S256x1024 .f32) (harg6 : arg6.IsWhole)
    (arg7 : Memref sig .tc .vmem S256x1024 .f32) (harg7 : arg7.IsWhole)
    (x h cPrev : Vec F S256x1024 .f32) (wts : Vec F S2048x4096 .bf16) (bias : Vec F S1x4096 .f32) (K : PUnit → sProp 𝕄) :
    iprop(owns (c : Thread nD τ) arg1 fullShare x ∗ owns (c : Thread nD τ) arg2 fullShare h ∗ owns (c : Thread nD τ) arg3 fullShare cPrev
        ∗ owns (c : Thread nD τ) arg4 fullShare wts ∗ owns (c : Thread nD τ) arg5 fullShare bias
        ∗ (∃ d, owns (c : Thread nD τ) arg6 fullShare d) ∗ (∃ d, owns (c : Thread nD τ) arg7 fullShare d)
        ∗ (iprop(owns (c : Thread nD τ) arg1 fullShare x ∗ owns (c : Thread nD τ) arg2 fullShare h ∗ owns (c : Thread nD τ) arg3 fullShare cPrev
            ∗ owns (c : Thread nD τ) arg4 fullShare wts ∗ owns (c : Thread nD τ) arg5 fullShare bias
            ∗ owns (c : Thread nD τ) arg6 fullShare (hiddenBlock x h cPrev wts bias)
            ∗ owns (c : Thread nD τ) arg7 fullShare (cellBlock x h cPrev wts bias)) -∗ K ⟨⟩))
      ⊢ wp frame (wpE (defs₀ (F := F)) Variants.none c none) E (cc0__lstm_kernel i arg1 harg1 arg2 harg2 arg3 harg3 arg4 harg4 arg5 harg5 arg6 harg6 arg7 harg7) K := by
  simp only [cc0__lstm_kernel_eq_skeleton]; unfold cc0__lstm_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf1 hf2 hf3 hf4 hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (cover_act _)
  iexists _; isplitr
  swap; · iexact H7
  ipureintro
  exact View.read_writes_eq_canon _ _ _ (cover_act _)

/-! ## The pipeline's proof data -/

/-- On core `c`: the arrays as the region finds them; after the body at point `t` each input buffer at its block and
    the two result buffers at `hiddenBlock` and `cellBlock` of the five input blocks; the invariant is the untouched
    rest; nothing owed; full shares. -/
def dats (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => hiddenBlock (blockAt m c 0 t) (blockAt m c 1 t) (blockAt m c 2 t) (blockAt m c 3 t) (blockAt m c 4 t)
    | ⟨6, _⟩ => cellBlock (blockAt m c 0 t) (blockAt m c 1 t) (blockAt m c 2 t) (blockAt m c 3 t) (blockAt m c 4 t)
  Φ _ := Pipeline.ΦA spec0 c
  q _ := fullShare
  owed _ := 0

theorem A_eq (c : Dev nD) (w : Fin cfg0.W) : (dats m 0 c).A w = atEntry m c (Pipeline.arrRef spec0 w) := by
  dsimp only [dats]

theorem after_0 (c : Dev nD) (t : Fin cfg0.N) : (dats m 0 c).after 0 t = blockAt m c 0 t := by dsimp only [dats]
theorem after_1 (c : Dev nD) (t : Fin cfg0.N) : (dats m 0 c).after 1 t = blockAt m c 1 t := by dsimp only [dats]
theorem after_2 (c : Dev nD) (t : Fin cfg0.N) : (dats m 0 c).after 2 t = blockAt m c 2 t := by dsimp only [dats]
theorem after_3 (c : Dev nD) (t : Fin cfg0.N) : (dats m 0 c).after 3 t = blockAt m c 3 t := by dsimp only [dats]
theorem after_4 (c : Dev nD) (t : Fin cfg0.N) : (dats m 0 c).after 4 t = blockAt m c 4 t := by dsimp only [dats]
theorem after_5 (c : Dev nD) (t : Fin cfg0.N) : (dats m 0 c).after 5 t
    = hiddenBlock (blockAt m c 0 t) (blockAt m c 1 t) (blockAt m c 2 t) (blockAt m c 3 t) (blockAt m c 4 t) := by dsimp only [dats]
theorem after_6 (c : Dev nD) (t : Fin cfg0.N) : (dats m 0 c).after 6 t
    = cellBlock (blockAt m c 0 t) (blockAt m c 1 t) (blockAt m c 2 t) (blockAt m c 3 t) (blockAt m c 4 t) := by dsimp only [dats]

theorem staged0 (c : Dev nD) (t : Fin cfg0.N) (d) : (dats m 0 c).before 0 t d = blockAt m c 0 t :=
  staged0_of m (dats m 0 c) (A_eq m c 0) (after_0 m c) t d
theorem staged1 (c : Dev nD) (t : Fin cfg0.N) (d) : (dats m 0 c).before 1 t d = blockAt m c 1 t :=
  staged1_of m (dats m 0 c) (A_eq m c 1) (after_1 m c) t d
theorem staged2 (c : Dev nD) (t : Fin cfg0.N) (d) : (dats m 0 c).before 2 t d = blockAt m c 2 t :=
  staged2_of m (dats m 0 c) (A_eq m c 2) (after_2 m c) t d
theorem staged3 (c : Dev nD) (t : Fin cfg0.N) (d) : (dats m 0 c).before 3 t d = blockAt m c 3 t :=
  staged3_of m (dats m 0 c) (A_eq m c 3) (after_3 m c) t d
theorem staged4 (c : Dev nD) (t : Fin cfg0.N) (d) : (dats m 0 c).before 4 t d = blockAt m c 4 t :=
  staged4_of m (dats m 0 c) (A_eq m c 4) (after_4 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t))

/-- The body at any point: the input buffers hold their blocks, so the body's triple applies; the invariant and what
    the core owes pass through. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [staged0, staged1, staged2, staged3, staged4]
  rw [show (dats m 0 c).Φ t.succ = (dats m 0 c).Φ t.castSucc from rfl,
    show (dats m 0 c).owesAt () t.succ = (dats m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_kernel c Set.univ _ _ _ _ _ _ _ _ _ _ _ _ _ _ _ (blockAt m c 0 t) (blockAt m c 1 t) (blockAt m c 2 t) (blockAt m c 3 t) (blockAt m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of the program terminates, and in every final state
    each array of the pipeline is what the proof data computes and every other unscoped buffer is as the region found it. -/
theorem run_main : θ_run defs (onTc (τ := τ) (main (F := F))) (s₀ m ρ) (Pipeline.FramePost cfgs (dats m) 0 (atEntry m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := atEntry m) (hmain := main_upto m Variants.none) (hA := A_eq m) (hΦ := fun _ _ => rfl)

/-- The frame, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)) :=
  frame_of m ρ (dats m) (A_eq m) (run_main m ρ)

end Cert.KernelIdeal.Frm

end
-- ==== Proof.LstmSpec.lean ====
/-
  The LSTM cell as functions of its argument arrays, index by index, over the extended reals.

  With X, H, C the [4096, 1024] arrays of inputs, previous hidden and previous cell states, Wx and Wh the four gate
  weight matrices of each kind stacked to [4096, 1024] (gate order: input, forget, candidate, output), and bx, bh the
  stacked biases, the pre-activation of gate column j at batch row r is

      g r j = Σ_k X[r,k]·Wx[j,k] + Σ_k H[r,k]·Wh[j,k] + bx[j] + bh[j],

  the new cell state is  σ(g r (1024+q))·C[r,q] + σ(g r q)·tanh(g r (2048+q))  and the new hidden state is
  σ(g r (3072+q))·tanh(new cell), σ the logistic function.

  One law is proved here: the sum over 2048 joined positions of [x | h] against the rows of the stacked transposed
  weights, plus the sum of the two biases, is that pre-activation. It uses only that addition of extended reals is
  associative and that a sum over an index set of 1024 + 1024 positions is the sum of the two halves' sums, so it
  needs no finiteness of the entries.
-/
import Idealize.ShloMosaic.PureOps.Ideal
import Idealize.ShloMosaic.Lib.ValueIdx
import Mathlib.Algebra.BigOperators.Fin

noncomputable section

namespace Cert.Lstm

open Idealize.ShloMosaic Idealize.ShloMosaic.ValueIdx

/-- The shape of x, h, c, the two results, and each stacked weight matrix. -/
abbrev Rows : Shape := ⟨2, ![4096, 1024]⟩
/-- The shape of a stacked bias vector. -/
abbrev Gates : Shape := ⟨1, ![4096]⟩

/-- The shape of one gate's weight matrix, and of one gate's bias. -/
abbrev Mat : Shape := ⟨2, ![1024, 1024]⟩
abbrev Bias : Shape := ⟨1, ![1024]⟩

theorem rows_stack : Shape.Concatenates [Mat, Mat, Mat, Mat] Rows 0 := by decide
theorem bias_stack : Shape.Concatenates [Bias, Bias, Bias, Bias] Gates 0 := by decide

/-- Four gate matrices stacked along the rows, in gate order. -/
def stackRows (a b c d : Mat.Idx → EReal) : Rows.Idx → EReal :=
  concatenate Rows 0 [⟨Mat, a⟩, ⟨Mat, b⟩, ⟨Mat, c⟩, ⟨Mat, d⟩] rows_stack

/-- Four gate biases laid end to end, in gate order. -/
def stackBias (a b c d : Bias.Idx → EReal) : Gates.Idx → EReal :=
  concatenate Gates 0 [⟨Bias, a⟩, ⟨Bias, b⟩, ⟨Bias, c⟩, ⟨Bias, d⟩] bias_stack

/-- The pre-activation of gate column `j` at batch row `r`. -/
def gatePre (X H Wx Wh : Rows.Idx → EReal) (bx bh : Gates.Idx → EReal) (r j : Fin 4096) : EReal :=
  (∑ k : Fin 1024, X (ix2 r k) * Wx (ix2 j k)) + (∑ k : Fin 1024, H (ix2 r k) * Wh (ix2 j k)) + bx (ix1 j) + bh (ix1 j)

/-- Hidden unit `q`'s column in each of the four gates. -/
def inCol (q : Fin 1024) : Fin 4096 := ⟨q.val, by have := q.isLt; omega⟩
def forgetCol (q : Fin 1024) : Fin 4096 := ⟨1024 + q.val, by have := q.isLt; omega⟩
def candCol (q : Fin 1024) : Fin 4096 := ⟨2048 + q.val, by have := q.isLt; omega⟩
def outCol (q : Fin 1024) : Fin 4096 := ⟨3072 + q.val, by have := q.isLt; omega⟩

/-- The new cell state of hidden unit `q` from a row's gate pre-activations `g` and the unit's previous cell state. -/
def cellAt (g : Fin 4096 → EReal) (cPrev : EReal) (q : Fin 1024) : EReal :=
  Ideal.logistic (g (forgetCol q)) * cPrev + Ideal.logistic (g (inCol q)) * Ideal.tanh (g (candCol q))

/-- The new hidden state of hidden unit `q`. -/
def hiddenAt (g : Fin 4096 → EReal) (cPrev : EReal) (q : Fin 1024) : EReal :=
  Ideal.logistic (g (outCol q)) * Ideal.tanh (cellAt g cPrev q)

/-- The new cell states as one array. -/
def cellNew (X H C Wx Wh : Rows.Idx → EReal) (bx bh : Gates.Idx → EReal) : Rows.Idx → EReal :=
  fun i => cellAt (gatePre X H Wx Wh bx bh (i 0)) (C i) (i 1)

/-- The new hidden states as one array. -/
def hiddenNew (X H C Wx Wh : Rows.Idx → EReal) (bx bh : Gates.Idx → EReal) : Rows.Idx → EReal :=
  fun i => hiddenAt (gatePre X H Wx Wh bx bh (i 0)) (C i) (i 1)

/-- Position `k` of the first half of the joined axis, and of the second. -/
def lowHalf (k : Fin 1024) : Fin 2048 := ⟨k.val, by have := k.isLt; omega⟩
def highHalf (k : Fin 1024) : Fin 2048 := ⟨1024 + k.val, by have := k.isLt; omega⟩

/-- A sum over the 2048 joined positions is the sum over the first 1024 plus the sum over the last 1024. -/
theorem sum_joined (f : Fin 2048 → EReal) :
    ∑ k : Fin 2048, f k = (∑ k : Fin 1024, f (lowHalf k)) + ∑ k : Fin 1024, f (highHalf k) :=
  Fin.sum_univ_add (a := 1024) (b := 1024) f

/-- THE LAW: one contraction over the joined row `[x | h]` against the column of the stacked transposed weights, plus the
    summed bias, is the gate's pre-activation. -/
theorem fused_eq_gatePre (X H Wx Wh : Rows.Idx → EReal) (bx bh : Gates.Idx → EReal) (r j : Fin 4096)
    (xh w : Fin 2048 → EReal) (b : EReal)
    (hx : ∀ k : Fin 1024, xh (lowHalf k) = X (ix2 r k)) (hh : ∀ k : Fin 1024, xh (highHalf k) = H (ix2 r k))
    (hwx : ∀ k : Fin 1024, w (lowHalf k) = Wx (ix2 j k)) (hwh : ∀ k : Fin 1024, w (highHalf k) = Wh (ix2 j k))
    (hb : b = bx (ix1 j) + bh (ix1 j)) :
    (∑ k : Fin 2048, xh k * w k) + b = gatePre X H Wx Wh bx bh r j := by
  rw [sum_joined, hb]
  unfold gatePre
  simp only [hx, hh, hwx, hwh]
  exact (add_assoc _ _ _).symm

end Cert.Lstm

end
-- ==== Proof.KernelBlock.lean ====
/-
  The body's arithmetic at one entry of a block.

  The body joins its blocks of x and h along the feature axis to one [256, 2048] matrix, multiplies it into the whole
  [2048, 4096] weight matrix, and adds the bias row to every row. Entry (p, j) of that product plus bias is therefore
  a sum over the 2048 joined positions; with the first 1024 rows of the weight matrix the transposed stacked
  input-side weights and the last 1024 the transposed stacked hidden-side weights, and the bias row the sum of the two
  stacked biases, it is the gate pre-activation of the specification (its fused form). The four gates are column
  ranges of that matrix, from which the new cell and hidden states follow entry by entry.
-/
import proofs.«100657_j35725537968252_2_alg».proof.Proof.Gen.KernelIdeal.Skeleton
import proofs.«100657_j35725537968252_2_alg».proof.Proof.LstmSpec
import Idealize.ShloMosaic.Lib.Pipeline.Value
import Idealize.ShloMosaic.Lib.ValueIdx
import Idealize.ShloMosaic.Lib.ValueLayout
import Idealize.ShloMosaic.PureOps.Ideal.Laws

set_option synthInstance.maxSize 4096

noncomputable section

namespace Cert.KernelIdeal.BlockValue

open Idealize.ShloMosaic Idealize.ShloMosaic.ValueIdx Cert.KernelIdeal Cert.KernelIdeal.Gen Cert.Lstm

/-- The body's matrix product: [256, 2048] by [2048, 4096], contracting the 2048 joined positions. -/
abbrev prodDims : DotDims S256x2048 S2048x4096 S256x4096 := dot_S256x2048_S2048x4096_S256x4096_1_0_0_1_n_n

/-! The product's operand indices at output entry `i` and contraction position `q`: (row of i, q) on the left,
    (q, column of i) on the right. -/
theorem lhs_row (i : S256x4096.Idx) (q : prodDims.contr.Idx) : (prodDims.lhsIdx i q 0).val = (i 0).val := by
  unfold DotDims.lhsIdx
  rw [dif_neg (show ¬(0 : Fin S256x2048.rank) ∈ prodDims.lhsBatch by decide), dif_pos (show (0 : Fin S256x2048.rank) ∈ prodDims.lhsNonContracting by decide)]
  rfl
theorem lhs_pos (i : S256x4096.Idx) (q : prodDims.contr.Idx) : (prodDims.lhsIdx i q 1).val = (q ⟨0, by decide⟩).val :=
  prodDims.lhsIdx_val_of_single rfl i q
theorem rhs_pos (i : S256x4096.Idx) (q : prodDims.contr.Idx) : (prodDims.rhsIdx i q 0).val = (q ⟨0, by decide⟩).val :=
  prodDims.rhsIdx_val_of_single rfl i q
theorem rhs_col (i : S256x4096.Idx) (q : prodDims.contr.Idx) : (prodDims.rhsIdx i q 1).val = (i 1).val := by
  unfold DotDims.rhsIdx
  rw [dif_neg (show ¬(1 : Fin S2048x4096.rank) ∈ prodDims.rhsBatch by decide), dif_pos (show (1 : Fin S2048x4096.rank) ∈ prodDims.rhsNonContracting by decide)]
  rfl

/-- Entry (p, j) of the product into a zero accumulator is the sum over the joined positions. -/
theorem matmul_at (lhs : FVec Ideal S256x2048 .bf16) (rhs : FVec Ideal S2048x4096 .bf16) (p : Fin 256) (j : Fin 4096) :
    matmul prodDims none lhs rhs (constant S256x4096 .f32 0x00000000#32) (ix2 p j) = ∑ k : Fin 2048, lhs (ix2 p k) * rhs (ix2 k j) := by
  simp only [matmul]
  rw [Ideal.matmul_constant_zero_apply, ← Equiv.sum_comp (contrEquiv1 prodDims 2048 rfl rfl).symm]
  refine Finset.sum_congr rfl fun k _ => ?_
  have hk := contrEquiv1_symm_val prodDims 2048 rfl rfl k
  have el : prodDims.lhsIdx (ix2 p j) ((contrEquiv1 prodDims 2048 rfl rfl).symm k) = ix2 p k := funext fun a => Fin.ext (by
    match a with
    | ⟨0, _⟩ => exact lhs_row _ _
    | ⟨1, _⟩ => exact (lhs_pos _ _).trans hk)
  have er : prodDims.rhsIdx (ix2 p j) ((contrEquiv1 prodDims 2048 rfl rfl).symm k) = ix2 k j := funext fun a => Fin.ext (by
    match a with
    | ⟨0, _⟩ => exact (rhs_pos _ _).trans hk
    | ⟨1, _⟩ => exact rhs_col _ _)
  rw [el, er]

/-- THE GATES OF A BLOCK ROW: if row `p` of the x and h blocks is row `r` of X and H, the weight block's first 1024 rows
    are Wx transposed and its last 1024 are Wh transposed, and the bias row is bx + bh, then entry (p, j) of the body's
    product-plus-bias is the gate pre-activation at (r, j). -/
theorem gates_at (x h : FVec Ideal S256x1024 .f32) (W : FVec Ideal S2048x4096 .bf16) (b : FVec Ideal S1x4096 .f32)
    (X H Wx Wh : Rows.Idx → EReal) (bx bh : Gates.Idx → EReal) (r : Fin 4096) (p : Fin 256) (j : Fin 4096)
    (hx : ∀ k : Fin 1024, x (ix2 p k) = X (ix2 r k)) (hh : ∀ k : Fin 1024, h (ix2 p k) = H (ix2 r k))
    (hWx : ∀ k : Fin 1024, W (ix2 (lowHalf k) j) = Wx (ix2 j k)) (hWh : ∀ k : Fin 1024, W (ix2 (highHalf k) j) = Wh (ix2 j k))
    (hb : b (ix2 (0 : Fin 1) j) = bx (ix1 j) + bh (ix1 j)) :
    k0_pay1 (F := Ideal) x h W b (ix2 p j) = gatePre X H Wx Wh bx bh r j := by
  unfold k0_pay1
  refine (addf_apply _ _ _).trans ?_
  rw [matmul_at, shapeCast_self, shapeCast_self, broadcastTo_1b_ab_apply]
  refine fused_eq_gatePre X H Wx Wh bx bh r j
    (fun k => concatenate S256x2048 1 [⟨S256x1024, truncf .bf16 x bitsLt_bf16_f32⟩, ⟨S256x1024, truncf .bf16 h bitsLt_bf16_f32⟩]
      concatenates_S256x1024_S256x1024_S256x2048_d1 (ix2 p k))
    (fun k => W (ix2 k j)) _ (fun k => ?_) (fun k => ?_) hWx hWh hb
  · exact (concatenate_pair_apply_left (t := S256x2048) (s₁ := S256x1024) (s₂ := S256x1024) (1 : Fin S256x2048.rank) _ _ _ (ix2 p (lowHalf k)) rfl (ix2 p k)
      (fun b => match b with | ⟨0, _⟩ => rfl | ⟨1, _⟩ => rfl)).trans (hx k)
  · exact (concatenate_pair_apply_right (t := S256x2048) (s₁ := S256x1024) (s₂ := S256x1024) (1 : Fin S256x2048.rank) _ _ _ (ix2 p (highHalf k)) rfl rfl (ix2 p k)
      (fun b hb => match b, hb with | ⟨0, _⟩, _ => rfl | ⟨1, _⟩, hb => absurd rfl hb)
      (by show k.val + 1024 = 1024 + k.val; omega)).trans (hh k)

/-- THE NEW CELL STATE OF A BLOCK ENTRY: under the same reading of the blocks, entry (p, q) of what the body stores into the
    cell-state result is the specification's new cell state of unit `q` from row `r`'s gates and the entry of the
    previous cell block. -/
theorem cell_at (x h cp : FVec Ideal S256x1024 .f32) (W : FVec Ideal S2048x4096 .bf16) (b : FVec Ideal S1x4096 .f32)
    (X H Wx Wh : Rows.Idx → EReal) (bx bh : Gates.Idx → EReal) (r : Fin 4096) (p : Fin 256) (q : Fin 1024)
    (hx : ∀ k : Fin 1024, x (ix2 p k) = X (ix2 r k)) (hh : ∀ k : Fin 1024, h (ix2 p k) = H (ix2 r k))
    (hWx : ∀ (k : Fin 1024) (j : Fin 4096), W (ix2 (lowHalf k) j) = Wx (ix2 j k))
    (hWh : ∀ (k : Fin 1024) (j : Fin 4096), W (ix2 (highHalf k) j) = Wh (ix2 j k))
    (hb : ∀ j : Fin 4096, b (ix2 (0 : Fin 1) j) = bx (ix1 j) + bh (ix1 j)) :
    k0_pay2 (F := Ideal) x h W b cp (ix2 p q) = cellAt (gatePre X H Wx Wh bx bh r) (cp (ix2 p q)) q := by
  have g : ∀ j : Fin 4096, k0_pay1 (F := Ideal) x h W b (ix2 p j) = gatePre X H Wx Wh bx bh r j := fun j =>
    gates_at x h W b X H Wx Wh bx bh r p j hx hh (fun k => hWx k j) (fun k => hWh k j) (hb j)
  unfold k0_pay2
  simp only [addf, mulf, logistic, tanh]
  have sF := slice2_axis1_apply 1024 (k0_pay1 (F := Ideal) x h W b) slices_S256x4096_o0_1024_S256x1024 p q (forgetCol q) rfl
  have sI := slice2_axis1_apply 0 (k0_pay1 (F := Ideal) x h W b) slices_S256x4096_o0_0_S256x1024 p q (inCol q) (Nat.zero_add _).symm
  have sG := slice2_axis1_apply 2048 (k0_pay1 (F := Ideal) x h W b) slices_S256x4096_o0_2048_S256x1024 p q (candCol q) rfl
  rw [sF, sI, sG, g, g, g]
  rfl

/-- THE NEW HIDDEN STATE OF A BLOCK ENTRY, likewise: the output gate times the hyperbolic tangent of the new cell state. -/
theorem hidden_at (x h cp : FVec Ideal S256x1024 .f32) (W : FVec Ideal S2048x4096 .bf16) (b : FVec Ideal S1x4096 .f32)
    (X H Wx Wh : Rows.Idx → EReal) (bx bh : Gates.Idx → EReal) (r : Fin 4096) (p : Fin 256) (q : Fin 1024)
    (hx : ∀ k : Fin 1024, x (ix2 p k) = X (ix2 r k)) (hh : ∀ k : Fin 1024, h (ix2 p k) = H (ix2 r k))
    (hWx : ∀ (k : Fin 1024) (j : Fin 4096), W (ix2 (lowHalf k) j) = Wx (ix2 j k))
    (hWh : ∀ (k : Fin 1024) (j : Fin 4096), W (ix2 (highHalf k) j) = Wh (ix2 j k))
    (hb : ∀ j : Fin 4096, b (ix2 (0 : Fin 1) j) = bx (ix1 j) + bh (ix1 j)) :
    k0_pay3 (F := Ideal) x h W b cp (ix2 p q) = hiddenAt (gatePre X H Wx Wh bx bh r) (cp (ix2 p q)) q := by
  have g : ∀ j : Fin 4096, k0_pay1 (F := Ideal) x h W b (ix2 p j) = gatePre X H Wx Wh bx bh r j := fun j =>
    gates_at x h W b X H Wx Wh bx bh r p j hx hh (fun k => hWx k j) (fun k => hWh k j) (hb j)
  unfold k0_pay3
  simp only [mulf, logistic, tanh]
  have sO := slice2_axis1_apply 3072 (k0_pay1 (F := Ideal) x h W b) slices_S256x4096_o0_3072_S256x1024 p q (outCol q) rfl
  rw [sO, g, cell_at x h cp W b X H Wx Wh bx bh r p q hx hh hWx hWh hb]
  rfl

end Cert.KernelIdeal.BlockValue

end
-- ==== Proof.KernelValue.lean ====
/-
  The two result arrays after the run, as functions of the argument arrays.

  When the region is entered the weight window's array is the two transposed stacks of gate weights joined along
  the rows and the bias window's array is the row of summed stacked biases (the eleven host operations). At grid
  point t the x, h and c windows hold rows 256·t … 256·t+255 of their arrays and the two wide windows hold their
  whole arrays, so what the point writes back into each result is rows 256·t … of the specification's array
  (the per-entry facts about the body's arithmetic). The sixteen row blocks cover the results, hence each result
  ends as the specification's array.
-/
import proofs.«100657_j35725537968252_2_alg».proof.Proof.KernelIdealFrame
import proofs.«100657_j35725537968252_2_alg».proof.Proof.KernelBlock
import Idealize.ShloMosaic.Lib.Pipeline.Value
import Idealize.ShloMosaic.Lib.StableHlo.Run
import Idealize.ShloMosaic.Lib.ValueLayout

set_option synthInstance.maxSize 4096
set_option maxRecDepth 16384

noncomputable section

namespace Cert.KernelIdeal.ArrayValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Frm Cert.KernelIdeal.BlockValue Cert.Lstm

variable (m : (ℓ : Loc nD τ sig) → Buf (Elt Ideal) ℓ) (ρ : Dev nD → PrngReg)

/-! ## The stacked weights and biases, and what the host operations leave in the two wide windows' arrays -/

def stackedWx (c : Dev nD) : Rows.Idx → EReal := stackRows (m ((c : Thread nD τ).loc main_arg3)) (m ((c : Thread nD τ).loc main_arg7)) (m ((c : Thread nD τ).loc main_arg11)) (m ((c : Thread nD τ).loc main_arg15))
def stackedWh (c : Dev nD) : Rows.Idx → EReal := stackRows (m ((c : Thread nD τ).loc main_arg5)) (m ((c : Thread nD τ).loc main_arg9)) (m ((c : Thread nD τ).loc main_arg13)) (m ((c : Thread nD τ).loc main_arg17))
def stackedBx (c : Dev nD) : Gates.Idx → EReal := stackBias (m ((c : Thread nD τ).loc main_arg4)) (m ((c : Thread nD τ).loc main_arg8)) (m ((c : Thread nD τ).loc main_arg12)) (m ((c : Thread nD τ).loc main_arg16))
def stackedBh (c : Dev nD) : Gates.Idx → EReal := stackBias (m ((c : Thread nD τ).loc main_arg6)) (m ((c : Thread nD τ).loc main_arg10)) (m ((c : Thread nD τ).loc main_arg14)) (m ((c : Thread nD τ).loc main_arg18))

/-- The joined weight matrix: Wx transposed above Wh transposed. -/
def joinedWeights (c : Dev nD) : FVec Ideal S2048x4096 .bf16 :=
  concatenate S2048x4096 0
    [⟨S1024x4096, truncf (F := Ideal) .bf16 (transpose S1024x4096 [1, 0] (stackedWx m c : FVec Ideal S4096x1024 .f32) transposes_S4096x1024_S1024x4096_1_0) bitsLt_bf16_f32⟩,
     ⟨S1024x4096, truncf (F := Ideal) .bf16 (transpose S1024x4096 [1, 0] (stackedWh m c : FVec Ideal S4096x1024 .f32) transposes_S4096x1024_S1024x4096_1_0) bitsLt_bf16_f32⟩]
    concatenates_S1024x4096_S1024x4096_S2048x4096_d0

/-- The bias row: the two stacked biases added, as one row. -/
def biasRow (c : Dev nD) : FVec Ideal S1x4096 .f32 :=
  shapeCast S1x4096 (addf (stackedBx m c : FVec Ideal S4096 .f32) (stackedBh m c : FVec Ideal S4096 .f32)) shapeCasts_S4096_S1x4096

theorem entry_weights (c : Dev nD) : (atEntry m c main_v10 : FVec Ideal S2048x4096 .bf16) = joinedWeights m c := by
  dsimp only [atEntry]
  simp only [hostOps0, List.flatten_cons, List.flatten_nil, List.append_nil, List.cons_append, List.nil_append]
  after_results
  rfl

theorem entry_bias (c : Dev nD) : (atEntry m c main_v5 : FVec Ideal S1x4096 .f32) = biasRow m c := by
  dsimp only [atEntry]
  simp only [hostOps0, List.flatten_cons, List.flatten_nil, List.append_nil, List.cons_append, List.nil_append]
  after_results
  rfl

/-- Row k of the joined matrix, k below 1024, is column k of Wx; -/
theorem weights_low (c : Dev nD) (k : Fin 1024) (j : Fin 4096) : joinedWeights m c (ix2 (lowHalf k) j) = stackedWx m c (ix2 j k) := by
  unfold joinedWeights
  exact (concatenate_pair_apply_left (t := S2048x4096) (s₁ := S1024x4096) (s₂ := S1024x4096) (0 : Fin S2048x4096.rank) _ _ _ (ix2 (lowHalf k) j) rfl (ix2 k j)
    (fun b => match b with | ⟨0, _⟩ => rfl | ⟨1, _⟩ => rfl)).trans (transpose_ix2_apply (stackedWx m c) _ k j)

/-- row 1024 + k is column k of Wh. -/
theorem weights_high (c : Dev nD) (k : Fin 1024) (j : Fin 4096) : joinedWeights m c (ix2 (highHalf k) j) = stackedWh m c (ix2 j k) := by
  unfold joinedWeights
  exact (concatenate_pair_apply_right (t := S2048x4096) (s₁ := S1024x4096) (s₂ := S1024x4096) (0 : Fin S2048x4096.rank) _ _ _ (ix2 (highHalf k) j) rfl rfl (ix2 k j)
    (fun b hb => match b, hb with | ⟨0, _⟩, hb => absurd rfl hb | ⟨1, _⟩, _ => rfl)
    (by show k.val + 1024 = 1024 + k.val; omega)).trans (transpose_ix2_apply (stackedWh m c) _ k j)

/-- Entry j of the bias row is the sum of the two stacked biases' entries. -/
theorem bias_row (c : Dev nD) (j : Fin 4096) : biasRow m c (ix2 (0 : Fin 1) j) = stackedBx m c (ix1 j) + stackedBh m c (ix1 j) := by
  unfold biasRow
  exact (shapeCast_a_1a_apply _ _ 0 j).trans (addf_apply _ _ _)

/-! ## The windows' blocks at a grid point -/

/-- The index maps over the sixteen points: the row-blocked windows sit at block row t, the wide windows at the origin. -/
theorem idx_rows : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_5.index t (0 : Fin 2) = t.val ∧ win0_5.index t (1 : Fin 2) = 0)
    ∧ (win0_6.index t (0 : Fin 2) = t.val ∧ win0_6.index t (1 : Fin 2) = 0) :=
  (by decide +kernel : ∀ t : Fin grid0.N, _)

theorem idx_wide : ∀ t : Fin cfg0.N,
    (win0_3.index t (0 : Fin 2) = 0 ∧ win0_3.index t (1 : Fin 2) = 0)
    ∧ (win0_4.index t (0 : Fin 2) = 0 ∧ win0_4.index t (1 : Fin 2) = 0) :=
  (by decide +kernel : ∀ t : Fin grid0.N, _)

/-- Row p of the block at point t is row 256·t + p of the array. -/
def rowOf (t : Fin cfg0.N) (p : Fin 256) : Fin 4096 :=
  ⟨t.val * 256 + p.val, by have ht : t.val < grid0.N := t.isLt; have hN : grid0.N = 16 := N_0; have := p.isLt; omega⟩

/-- The x window's block. -/
theorem x_block (c : Dev nD) (t : Fin cfg0.N) (p : Fin 256) (k : Fin 1024) :
    blockAt m c 0 t (ix2 p k) = m ((c : Thread nD τ).loc main_arg0) (ix2 (rowOf t p) k) := by
  show atEntry m c main_arg0 (((cfg0.win 0).blk t).view.emb (ix2 p k)) = _
  rw [entry_arg0]
  refine congrArg _ (funext fun a => Fin.ext ?_)
  have e := (idx_rows t).1
  match a with
  | ⟨0, _⟩ => show win0_0.index t (0 : Fin 2) * 256 + 1 * p.val = t.val * 256 + p.val; rw [e.1]; omega
  | ⟨1, _⟩ => show win0_0.index t (1 : Fin 2) * 1024 + 1 * k.val = k.val; rw [e.2]; omega

/-- The h window's block. -/
theorem h_block (c : Dev nD) (t : Fin cfg0.N) (p : Fin 256) (k : Fin 1024) :
    blockAt m c 1 t (ix2 p k) = m ((c : Thread nD τ).loc main_arg1) (ix2 (rowOf t p) k) := by
  show atEntry m c main_arg1 (((cfg0.win 1).blk t).view.emb (ix2 p k)) = _
  rw [entry_arg1]
  refine congrArg _ (funext fun a => Fin.ext ?_)
  have e := (idx_rows t).2.1
  match a with
  | ⟨0, _⟩ => show win0_1.index t (0 : Fin 2) * 256 + 1 * p.val = t.val * 256 + p.val; rw [e.1]; omega
  | ⟨1, _⟩ => show win0_1.index t (1 : Fin 2) * 1024 + 1 * k.val = k.val; rw [e.2]; omega

/-- The previous cell state's block. -/
theorem c_block (c : Dev nD) (t : Fin cfg0.N) (p : Fin 256) (q : Fin 1024) :
    blockAt m c 2 t (ix2 p q) = m ((c : Thread nD τ).loc main_arg2) (ix2 (rowOf t p) q) := by
  show atEntry m c main_arg2 (((cfg0.win 2).blk t).view.emb (ix2 p q)) = _
  rw [entry_arg2]
  refine congrArg _ (funext fun a => Fin.ext ?_)
  have e := (idx_rows t).2.2.1
  match a with
  | ⟨0, _⟩ => show win0_2.index t (0 : Fin 2) * 256 + 1 * p.val = t.val * 256 + p.val; rw [e.1]; omega
  | ⟨1, _⟩ => show win0_2.index t (1 : Fin 2) * 1024 + 1 * q.val = q.val; rw [e.2]; omega

/-- The weight window's block is the whole joined matrix. -/
theorem w_block (c : Dev nD) (t : Fin cfg0.N) (k : Fin 2048) (j : Fin 4096) :
    blockAt m c 3 t (ix2 k j) = joinedWeights m c (ix2 k j) := by
  show atEntry m c main_v10 (((cfg0.win 3).blk t).view.emb (ix2 k j)) = _
  rw [← entry_weights]
  refine congrArg _ (funext fun a => Fin.ext ?_)
  have e := (idx_wide t).1
  match a with
  | ⟨0, _⟩ => show win0_3.index t (0 : Fin 2) * 2048 + 1 * k.val = k.val; rw [e.1]; omega
  | ⟨1, _⟩ => show win0_3.index t (1 : Fin 2) * 4096 + 1 * j.val = j.val; rw [e.2]; omega

/-- The bias window's block is the whole bias row. -/
theorem b_block (c : Dev nD) (t : Fin cfg0.N) (j : Fin 4096) :
    blockAt m c 4 t (ix2 (0 : Fin 1) j) = biasRow m c (ix2 (0 : Fin 1) j) := by
  show atEntry m c main_v5 (((cfg0.win 4).blk t).view.emb (ix2 (0 : Fin 1) j)) = _
  rw [← entry_bias]
  refine congrArg _ (funext fun a => Fin.ext ?_)
  have e := (idx_wide t).2
  match a with
  | ⟨0, _⟩ => show win0_4.index t (0 : Fin 2) * 1 + 1 * 0 = 0; rw [e.1]
  | ⟨1, _⟩ => show win0_4.index t (1 : Fin 2) * 4096 + 1 * j.val = j.val; rw [e.2]; omega

/-- Where entry (p, q) of a result's block at point t sits in the result. -/
theorem out_emb5 (t : Fin cfg0.N) (p : Fin 256) (q : Fin 1024) :
    ((cfg0.win 5).blk t).view.emb (ix2 p q) = (ix2 (rowOf t p) q : S4096x1024.Idx) := by
  refine funext fun a => Fin.ext ?_
  have e := (idx_rows t).2.2.2.1
  match a with
  | ⟨0, _⟩ => show win0_5.index t (0 : Fin 2) * 256 + 1 * p.val = t.val * 256 + p.val; rw [e.1]; omega
  | ⟨1, _⟩ => show win0_5.index t (1 : Fin 2) * 1024 + 1 * q.val = q.val; rw [e.2]; omega
theorem out_emb6 (t : Fin cfg0.N) (p : Fin 256) (q : Fin 1024) :
    ((cfg0.win 6).blk t).view.emb (ix2 p q) = (ix2 (rowOf t p) q : S4096x1024.Idx) := by
  refine funext fun a => Fin.ext ?_
  have e := (idx_rows t).2.2.2.2
  match a with
  | ⟨0, _⟩ => show win0_6.index t (0 : Fin 2) * 256 + 1 * p.val = t.val * 256 + p.val; rw [e.1]; omega
  | ⟨1, _⟩ => show win0_6.index t (1 : Fin 2) * 1024 + 1 * q.val = q.val; rw [e.2]; omega

/-! ## What a point writes back -/

theorem hz : (![0, 0] : Fin 2 → Nat) = fun _ => 0 := funext fun a => by fin_cases a <;> rfl

/-- Point t writes back block t of the specification's new hidden states. -/
theorem hidden_flushed (c : Dev nD) (t : Fin cfg0.N) :
    (dats m 0 c).flushed 5 t = ((cfg0.win 5).blk t).view.read (Elt Ideal) (hiddenNew (m ((c : Thread nD τ).loc main_arg0)) (m ((c : Thread nD τ).loc main_arg1)) (m ((c : Thread nD τ).loc main_arg2)) (stackedWx m c) (stackedWh m c) (stackedBx m c) (stackedBh m c)) := by
  show (cfg0.win 5).cut (grid0.coords t) ((dats m 0 c).after 5 t) = _
  rw [after_5]
  unfold hiddenBlock
  rw [View.canon_unit_zero hz]
  simp only [View.ld_unit_zero (S := S256x1024) hz, View.ld_unit_zero (S := S2048x4096) hz, View.ld_unit_zero (S := S1x4096) hz]
  funext y
  obtain ⟨p, q, rfl⟩ : ∃ (p : Fin 256) (q : Fin 1024), y = ix2 p q := ⟨y 0, y 1, eq_ix2 (n0 := 256) (n1 := 1024) y⟩
  refine (hidden_at (blockAt m c 0 t) (blockAt m c 1 t) (blockAt m c 2 t) (blockAt m c 3 t) (blockAt m c 4 t)
    (m ((c : Thread nD τ).loc main_arg0)) (m ((c : Thread nD τ).loc main_arg1)) (stackedWx m c) (stackedWh m c) (stackedBx m c) (stackedBh m c) (rowOf t p) p q
    (x_block m c t p) (h_block m c t p)
    (fun k j => (w_block m c t (lowHalf k) j).trans (weights_low m c k j))
    (fun k j => (w_block m c t (highHalf k) j).trans (weights_high m c k j))
    (fun j => (b_block m c t j).trans (bias_row m c j))).trans ?_
  rw [c_block m c t p q]
  show _ = hiddenNew (m ((c : Thread nD τ).loc main_arg0)) (m ((c : Thread nD τ).loc main_arg1)) (m ((c : Thread nD τ).loc main_arg2)) (stackedWx m c) (stackedWh m c) (stackedBx m c) (stackedBh m c) (((cfg0.win 5).blk t).view.emb (ix2 p q))
  rw [out_emb5 t p q]
  rfl

/-- Point t writes back block t of the specification's new cell states. -/
theorem cell_flushed (c : Dev nD) (t : Fin cfg0.N) :
    (dats m 0 c).flushed 6 t = ((cfg0.win 6).blk t).view.read (Elt Ideal) (cellNew (m ((c : Thread nD τ).loc main_arg0)) (m ((c : Thread nD τ).loc main_arg1)) (m ((c : Thread nD τ).loc main_arg2)) (stackedWx m c) (stackedWh m c) (stackedBx m c) (stackedBh m c)) := by
  show (cfg0.win 6).cut (grid0.coords t) ((dats m 0 c).after 6 t) = _
  rw [after_6]
  unfold cellBlock
  rw [View.canon_unit_zero hz]
  simp only [View.ld_unit_zero (S := S256x1024) hz, View.ld_unit_zero (S := S2048x4096) hz, View.ld_unit_zero (S := S1x4096) hz]
  funext y
  obtain ⟨p, q, rfl⟩ : ∃ (p : Fin 256) (q : Fin 1024), y = ix2 p q := ⟨y 0, y 1, eq_ix2 (n0 := 256) (n1 := 1024) y⟩
  refine (cell_at (blockAt m c 0 t) (blockAt m c 1 t) (blockAt m c 2 t) (blockAt m c 3 t) (blockAt m c 4 t)
    (m ((c : Thread nD τ).loc main_arg0)) (m ((c : Thread nD τ).loc main_arg1)) (stackedWx m c) (stackedWh m c) (stackedBx m c) (stackedBh m c) (rowOf t p) p q
    (x_block m c t p) (h_block m c t p)
    (fun k j => (w_block m c t (lowHalf k) j).trans (weights_low m c k j))
    (fun k j => (w_block m c t (highHalf k) j).trans (weights_high m c k j))
    (fun j => (b_block m c t j).trans (bias_row m c j))).trans ?_
  rw [c_block m c t p q]
  show _ = cellNew (m ((c : Thread nD τ).loc main_arg0)) (m ((c : Thread nD τ).loc main_arg1)) (m ((c : Thread nD τ).loc main_arg2)) (stackedWx m c) (stackedWh m c) (stackedBx m c) (stackedBh m c) (((cfg0.win 6).blk t).view.emb (ix2 p q))
  rw [out_emb6 t p q]
  rfl

/-! ## The cover, and the arrays after the run -/

theorem mem_blk5 (t : Fin cfg0.N) (i : S4096x1024.Idx) :
    i ∈ ((cfg0.win 5).blk t).view.set ↔ ∀ a : Fin 2, win0_5.index t a * S256x1024.size a ≤ (i a).val ∧ (i a).val < win0_5.index t a * S256x1024.size a + S256x1024.size a := by
  show i ∈ ((View.whole main_v11_0).slice (win0_5.rect t)).set ↔ _
  rw [View.set_slice_whole, Rect.mem_set_unit]
  exact Iff.rfl

/-- Every entry of the result lies in the block of the point its row belongs to: the sixteen blocks of 256 rows tile the array. -/
theorem cover5 (i : S4096x1024.Idx) : ∃ t : Fin cfg0.N, (cfg0.win 5).flush t = true ∧ i ∈ ((cfg0.win 5).blk t).view.set := by
  have hi0 : (i 0).val < 4096 := (i 0).isLt
  have hi1 : (i 1).val < 1024 := (i 1).isLt
  have hN : grid0.N = 16 := N_0
  let t : Fin cfg0.N := ⟨(i 0).val / 256, by show (i 0).val / 256 < grid0.N; omega⟩
  have e := (idx_rows t).2.2.2.1
  have ht : t.val = (i 0).val / 256 := rfl
  refine ⟨t, flush0_5 t, ?_⟩
  rw [mem_blk5]
  intro a
  match a with
  | ⟨0, _⟩ => show win0_5.index t (0 : Fin 2) * 256 ≤ (i 0).val ∧ (i 0).val < win0_5.index t (0 : Fin 2) * 256 + 256; rw [e.1]; omega
  | ⟨1, _⟩ => show win0_5.index t (1 : Fin 2) * 1024 ≤ (i 1).val ∧ (i 1).val < win0_5.index t (1 : Fin 2) * 1024 + 1024; rw [e.2]; omega

theorem mem_blk6 (t : Fin cfg0.N) (i : S4096x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v11_1).slice (win0_6.rect t)).set ↔ _
  rw [View.set_slice_whole, Rect.mem_set_unit]
  exact Iff.rfl

/-- Every entry of the result lies in the block of the point its row belongs to: the sixteen blocks of 256 rows tile the array. -/
theorem cover6 (i : S4096x1024.Idx) : ∃ t : Fin cfg0.N, (cfg0.win 6).flush t = true ∧ i ∈ ((cfg0.win 6).blk t).view.set := by
  have hi0 : (i 0).val < 4096 := (i 0).isLt
  have hi1 : (i 1).val < 1024 := (i 1).isLt
  have hN : grid0.N = 16 := N_0
  let t : Fin cfg0.N := ⟨(i 0).val / 256, by show (i 0).val / 256 < grid0.N; omega⟩
  have e := (idx_rows t).2.2.2.2
  have ht : t.val = (i 0).val / 256 := rfl
  refine ⟨t, flush0_6 t, ?_⟩
  rw [mem_blk6]
  intro a
  match a with
  | ⟨0, _⟩ => show win0_6.index t (0 : Fin 2) * 256 ≤ (i 0).val ∧ (i 0).val < win0_6.index t (0 : Fin 2) * 256 + 256; rw [e.1]; omega
  | ⟨1, _⟩ => show win0_6.index t (1 : Fin 2) * 1024 ≤ (i 1).val ∧ (i 1).val < win0_6.index t (1 : Fin 2) * 1024 + 1024; rw [e.2]; omega

/-- The new hidden states' array after the run. -/
theorem hidden_final (c : Dev nD) : (dats m 0 c).arrAt 5 cfg0.N = hiddenNew (m ((c : Thread nD τ).loc main_arg0)) (m ((c : Thread nD τ).loc main_arg1)) (m ((c : Thread nD τ).loc main_arg2)) (stackedWx m c) (stackedWh m c) (stackedBx m c) (stackedBh m c) :=
  (dats m 0 c).arrAt_eq_of_cover 5 _ (fun t _ => hidden_flushed m c t) cover5

/-- The new cell states' array after the run. -/
theorem cell_final (c : Dev nD) : (dats m 0 c).arrAt 6 cfg0.N = cellNew (m ((c : Thread nD τ).loc main_arg0)) (m ((c : Thread nD τ).loc main_arg1)) (m ((c : Thread nD τ).loc main_arg2)) (stackedWx m c) (stackedWh m c) (stackedBx m c) (stackedBh m c) :=
  (dats m 0 c).arrAt_eq_of_cover 6 _ (fun t _ => cell_flushed m c t) cover6

/-- THE RUN: every weakly fair execution terminates with the two results at the specification's arrays of the
    arguments and the arguments unchanged. -/
theorem run : θ_run defs (onTc (τ := τ) (main (F := Ideal))) ⟨m, fun _ => 0, ρ⟩ fun r => ∀ c : Dev nD,
      r.2.mem ((c.tc : Thread nD τ).loc main_v11_0) = hiddenNew (m ((c : Thread nD τ).loc main_arg0)) (m ((c : Thread nD τ).loc main_arg1)) (m ((c : Thread nD τ).loc main_arg2)) (stackedWx m c) (stackedWh m c) (stackedBx m c) (stackedBh m c)
      ∧ r.2.mem ((c.tc : Thread nD τ).loc main_v11_1) = cellNew (m ((c : Thread nD τ).loc main_arg0)) (m ((c : Thread nD τ).loc main_arg1)) (m ((c : Thread nD τ).loc main_arg2)) (stackedWx m c) (stackedWh m c) (stackedBx m c) (stackedBh m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18) :=
  (θ_run defs _ _).mono (fun r h c => ⟨((h c).1 5).trans (hidden_final m c), ((h c).1 6).trans (cell_final m c),
      kept_of_post m (dats m) (A_eq m) r h c⟩)
    (run_main m ρ)

end Cert.KernelIdeal.ArrayValue

end
-- ==== Proof.ReferenceValue.lean ====
/-
  The reference's two results are the specification's arrays of the arguments.

  The reference multiplies x and h into the transposed stacked weights separately, adds the two products, then adds
  each stacked bias broadcast down the rows: entry (r, j) of that is the gate pre-activation as the specification
  writes it. It cuts the four gates out as column ranges, applies the logistic function in its expanded form
  1 / (1 + exp(-z)) — which is the logistic function on every extended real — and the hyperbolic tangent, and
  combines them with the previous cell state.
-/
import proofs.«100657_j35725537968252_2_alg».proof.Proof.Gen.ReferenceIdeal.Run
import proofs.«100657_j35725537968252_2_alg».proof.Proof.Gen.ReferenceIdeal.Read
import proofs.«100657_j35725537968252_2_alg».proof.Proof.LstmSpec

noncomputable section

namespace Cert.ReferenceIdeal.RefValue

open Idealize.ShloMosaic Idealize.ShloMosaic.ValueIdx Cert.ReferenceIdeal Cert.ReferenceIdeal.Read Cert.Lstm

/-- The word 0x3F800000 is the number one. -/
theorem one_word : Ideal.ofBits .f32 0x3F800000#32 = 1 := by
  simp [Ideal.ofBits, Ideal.ieee, -EReal.coe_mul]; norm_num

/-- The expanded logistic, one over one plus the exponential of the negation, is the logistic function. -/
theorem logistic_expanded (z : EReal) :
    FloatOps.hostDivf (F := Ideal) (φ := .f32) (FloatOps.ofBits .f32 0x3F800000#32)
      (FloatOps.addf (FloatOps.ofBits .f32 0x3F800000#32) (FloatOps.hostUnary .exp (FloatOps.hostNegf z))) = Ideal.logistic z := by
  rw [Ideal.ofBits_def, one_word]; rfl

variable (x0 x1 x2 : (⟨S4096x1024, .f32⟩ : BufTy).Contents (Elt Ideal))
  (x3 x5 x7 x9 x11 x13 x15 x17 : (⟨S1024x1024, .f32⟩ : BufTy).Contents (Elt Ideal))
  (x4 x6 x8 x10 x12 x14 x16 x18 : (⟨S1024, .f32⟩ : BufTy).Contents (Elt Ideal))

/-- The reference stacks the weights and biases as the specification does. -/
theorem stackedWx_eq : val_main_v0 (F := Ideal) x3 x7 x11 x15 = stackRows x3 x7 x11 x15 := rfl
theorem stackedWh_eq : val_main_v1 (F := Ideal) x5 x9 x13 x17 = stackRows x5 x9 x13 x17 := rfl
theorem stackedBx_eq : val_main_v2 (F := Ideal) x4 x8 x12 x16 = stackBias x4 x8 x12 x16 := rfl
theorem stackedBh_eq : val_main_v3 (F := Ideal) x6 x10 x14 x18 = stackBias x6 x10 x14 x18 := rfl

/-- Entry (r, j) of the reference's sum of two products and two broadcast biases is the gate pre-activation, over the
    stacked weights and biases as the reference stacks them. -/
theorem gates_ref (i : S4096x4096.Idx) :
    val_main_v14 (F := Ideal) x0 x1 x3 x4 x5 x6 x7 x8 x9 x10 x11 x12 x13 x14 x15 x16 x17 x18 i
      = gatePre x0 x1 (val_main_v0 (F := Ideal) x3 x7 x11 x15) (val_main_v1 (F := Ideal) x5 x9 x13 x17) (val_main_v2 (F := Ideal) x4 x8 x12 x16) (val_main_v3 (F := Ideal) x6 x10 x14 x18) (i 0) (i 1) := by
  rw [val_main_v14_apply, val_main_v11_apply, val_main_v8_apply, val_main_v5_apply, val_main_v7_apply,
    val_main_v10_apply, val_main_v9_apply, val_main_v13_apply, val_main_v12_apply]
  simp only [val_main_v4_apply, val_main_v6_apply]
  unfold gatePre
  have e1 : ∀ k : Fin 1024, lidx_main_v5 i k = ix2 (i 0) k := fun k => funext fun a => by
    match a with | ⟨0, _⟩ => rfl | ⟨1, _⟩ => rfl
  have e2 : ∀ k : Fin 1024, idx_main_v4 (ridx_main_v5 i k) = ix2 (i 1) k := fun k => funext fun a => by
    match a with | ⟨0, _⟩ => rfl | ⟨1, _⟩ => rfl
  have e3 : ∀ k : Fin 1024, lidx_main_v7 i k = ix2 (i 0) k := fun k => funext fun a => by
    match a with | ⟨0, _⟩ => rfl | ⟨1, _⟩ => rfl
  have e4 : ∀ k : Fin 1024, idx_main_v6 (ridx_main_v7 i k) = ix2 (i 1) k := fun k => funext fun a => by
    match a with | ⟨0, _⟩ => rfl | ⟨1, _⟩ => rfl
  have e5 : idx_main_v9 (idx_main_v10 i) = ix1 (i 1) := funext fun a => by
    match a with | ⟨0, _⟩ => rfl
  have e6 : idx_main_v12 (idx_main_v13 i) = ix1 (i 1) := funext fun a => by
    match a with | ⟨0, _⟩ => rfl
  simp only [e1, e2, e3, e4, e5, e6]
  rfl

/-- The reference's new cell state is the specification's. -/
theorem cell_ref :
    val_main_v40 (F := Ideal) x0 x1 x2 x3 x4 x5 x6 x7 x8 x9 x10 x11 x12 x13 x14 x15 x16 x17 x18 = cellNew x0 x1 x2 (val_main_v0 (F := Ideal) x3 x7 x11 x15) (val_main_v1 (F := Ideal) x5 x9 x13 x17) (val_main_v2 (F := Ideal) x4 x8 x12 x16) (val_main_v3 (F := Ideal) x6 x10 x14 x18) := by
  funext i
  simp only [val_main_v40_apply, val_main_v38_apply, val_main_v39_apply, val_main_v30_apply, val_main_v24_apply, val_main_v31_apply, val_main_v29_apply, val_main_v28_apply, val_main_v23_apply, val_main_v22_apply, val_main_v27_apply, val_main_v26_apply, val_main_v21_apply, val_main_v20_apply, val_main_cst_2_apply, val_main_cst_1_apply, val_main_cst_0_apply, val_main_cst_apply, val_main_v25_apply, val_main_v19_apply, val_main_v17_apply, val_main_v16_apply, val_main_v15_apply, gates_ref, logistic_expanded]
  rfl

/-- The reference's new hidden state is the specification's. -/
theorem hidden_ref :
    val_main_v42 (F := Ideal) x0 x1 x2 x3 x4 x5 x6 x7 x8 x9 x10 x11 x12 x13 x14 x15 x16 x17 x18 = hiddenNew x0 x1 x2 (val_main_v0 (F := Ideal) x3 x7 x11 x15) (val_main_v1 (F := Ideal) x5 x9 x13 x17) (val_main_v2 (F := Ideal) x4 x8 x12 x16) (val_main_v3 (F := Ideal) x6 x10 x14 x18) := by
  funext i
  have hc := congrFun (cell_ref x0 x1 x2 x3 x5 x7 x9 x11 x13 x15 x17 x4 x6 x8 x10 x12 x14 x16 x18) i
  simp only [val_main_v42_apply, val_main_v41_apply, val_main_v37_apply, val_main_v36_apply, val_main_v35_apply, val_main_v34_apply, val_main_v33_apply, val_main_cst_4_apply, val_main_cst_3_apply, val_main_v32_apply, val_main_v18_apply, gates_ref, logistic_expanded, hc]
  rfl

end Cert.ReferenceIdeal.RefValue

end
-- ==== Proof.lean ====
/-
  An LSTM cell step as one Pallas kernel against its jnp reference, over the extended reals.

  Both programs stack the four gate weight matrices of each kind and the four gate biases of each kind. The kernel
  joins the transposed stacks into one [2048, 4096] matrix and adds the two bias stacks beforehand; per block of 256
  batch rows it multiplies the joined row [x | h] into that matrix, adds the bias row, and applies the gate
  nonlinearities. The reference multiplies x and h into their transposed stacks separately and adds the four terms
  in order. At every entry the two pre-activations are the same extended real: a sum over 1024 + 1024 joined
  positions is the sum of the two halves' sums, and addition is associative, with no finiteness needed. The logistic
  function is one function whether taken whole (the kernel) or as 1 / (1 + exp(-z)) (the reference), and so is the
  hyperbolic tangent; a change of float format is the identity. Hence the new hidden and cell states agree entry by
  entry.

  The three frames: each kernel program's from the frame run over its sixteen grid points, the reference's from
  its run. The idealization rewrote nothing, so it is preserved trivially.
-/
import proofs.«100657_j35725537968252_2_alg».proof.Defs
import proofs.«100657_j35725537968252_2_alg».proof.Proof.Gen.Kernel
import proofs.«100657_j35725537968252_2_alg».proof.Proof.Gen.KernelIdeal
import proofs.«100657_j35725537968252_2_alg».proof.Proof.Gen.ReferenceIdeal
import proofs.«100657_j35725537968252_2_alg».proof.Proof.Gen.Pre_finite_inputs
import proofs.«100657_j35725537968252_2_alg».proof.Proof.KernelFrame
import proofs.«100657_j35725537968252_2_alg».proof.Proof.KernelValue
import proofs.«100657_j35725537968252_2_alg».proof.Proof.ReferenceValue
import Idealize.ShloMosaic.Adequacy
import Idealize.ShloMosaic.Init

noncomputable section

namespace Cert.Proof

open Idealize.ShloMosaic Idealize.ShloMosaic.TcCoe Idealize.SL.Sem Cert.Lstm

theorem frame_kernel : Cert.frame_Kernel := fun m ρ _ => Cert.Kernel.Frm.frame m ρ

theorem frame_kernelIdeal : Cert.frame_KernelIdeal := fun m ρ _ => Cert.KernelIdeal.Frm.frame m ρ

/-- The reference's frame is its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

/-- Both programs end with their two results at the specification's new hidden and new cell states of the kernel's
    arguments: the kernel by its run read block by block, the reference by its run read operation by operation and
    rewritten along the agreement of the arguments. -/
theorem algebraic : Cert.algebraic_KernelIdeal_ReferenceIdeal := by
  intro m ρ m' ρ' _ hagree
  refine ⟨fun c => hiddenNew (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (Cert.KernelIdeal.ArrayValue.stackedWx m c) (Cert.KernelIdeal.ArrayValue.stackedWh m c) (Cert.KernelIdeal.ArrayValue.stackedBx m c) (Cert.KernelIdeal.ArrayValue.stackedBh m c),
    fun c => cellNew (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (Cert.KernelIdeal.ArrayValue.stackedWx m c) (Cert.KernelIdeal.ArrayValue.stackedWh m c) (Cert.KernelIdeal.ArrayValue.stackedBx m c) (Cert.KernelIdeal.ArrayValue.stackedBh m c),
    Cert.KernelIdeal.ArrayValue.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · obtain ⟨a0, a1, a2, a3, a4, a5, a6, a7, a8, a9, a10, a11, a12, a13, a14, a15, a16, a17, a18⟩ := hagree c
    rw [Cert.ReferenceIdeal.Read.val_main_v42_eq, Cert.ReferenceIdeal.RefValue.hidden_ref,
      Cert.ReferenceIdeal.RefValue.stackedWx_eq, Cert.ReferenceIdeal.RefValue.stackedWh_eq,
      Cert.ReferenceIdeal.RefValue.stackedBx_eq, Cert.ReferenceIdeal.RefValue.stackedBh_eq]
    simp only [a0, a1, a2, a3, a4, a5, a6, a7, a8, a9, a10, a11, a12, a13, a14, a15, a16, a17, a18]
    rfl
  · obtain ⟨a0, a1, a2, a3, a4, a5, a6, a7, a8, a9, a10, a11, a12, a13, a14, a15, a16, a17, a18⟩ := hagree c
    rw [Cert.ReferenceIdeal.Read.val_main_v40_eq, Cert.ReferenceIdeal.RefValue.cell_ref,
      Cert.ReferenceIdeal.RefValue.stackedWx_eq, Cert.ReferenceIdeal.RefValue.stackedWh_eq,
      Cert.ReferenceIdeal.RefValue.stackedBx_eq, Cert.ReferenceIdeal.RefValue.stackedBh_eq]
    simp only [a0, a1, a2, a3, a4, a5, a6, a7, a8, a9, a10, a11, a12, a13, a14, a15, a16, a17, a18]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
